-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x8 : Shape := ⟨2, ![131072, 8]⟩
abbrev S131072x512 : Shape := ⟨2, ![131072, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S512x64 : Shape := ⟨2, ![512, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S131072x8 : S_.BroadcastsInDim S131072x8 (![] : Fin 0 → Fin S131072x8.rank)
  reducesTo_S131072x8_S_d0_1 : S131072x8.ReducesTo [0, 1] S_
  h_S_ : 0 < S_.numel
  bcast_S_S131072x512 : S_.BroadcastsInDim S131072x512 (![] : Fin 0 → Fin S131072x512.rank)
  reducesTo_S131072x512_S_d0_1 : S131072x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S64x1 .f32) (main_arg15 : FVec F S1 .f32) (main_v63 : IVec S_ 1) (main_v67 : IVec S_ 1) : IVec S_ 1 :=
  let main_v68 : IVec S_ 1 := andi main_v63 main_v67
  let main_v69 : FVec F S64x1 .f32 := Host.absf main_arg14
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S64 .f32) (main_arg12 : FVec F S512x64 .f32) (main_arg13 : FVec F S64 .f32) (main_arg14 : FVec F S64x1 .f32) (main_arg15 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S512x64 .f32 := Host.absf main_arg12
  let main_cst_22 : FVec F S_ .f32 := constant S_ .f32 0x7F800000#32
  let main_v60 : FVec F S512x64 .f32 := broadcastInDim S512x64 ![] bcast_S_S512x64 main_cst_22
  let main_v61 : IVec S512x64 1 := cmpf .olt main_v59 main_v60
  let main_c_23 : IVec S_ 1 := constantI S_ 1 1#1
  let main_v62 : IVec S_ 1 := (fun x v => Host.reduce IntOp.andi x v reducesTo_S512x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_v63 main_v67

def fn_part2 {F : FTy → Type} [FloatOps F] (main_arg7 : FVec F S64 .f32) (main_arg8 : FVec F S512x128 .f32) (main_arg9 : FVec F S128 .f32) (main_arg10 : FVec F S128x64 .f32) (main_arg11 : FVec F S64 .f32) (main_arg12 : FVec F S512x64 .f32) (main_arg13 : FVec F S64 .f32) (main_arg14 : FVec F S64x1 .f32) (main_arg15 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S512x128 .f32 := Host.absf main_arg8
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_arg14 main_arg15 main_v48 main_v49 main_v50

def fn_part1 {F : FTy → Type} [FloatOps F] (main_arg4 : FVec F S128x512 .f32) (main_arg5 : FVec F S512 .f32) (main_arg6 : FVec F S512x64 .f32) (main_arg7 : FVec F S64 .f32) (main_arg8 : FVec F S512x128 .f32) (main_arg9 : FVec F S128 .f32) (main_arg10 : FVec F S128x64 .f32) (main_arg11 : FVec F S64 .f32) (main_arg12 : FVec F S512x64 .f32) (main_arg13 : FVec F S64 .f32) (main_arg14 : FVec F S64x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x64 .f32 := Host.absf main_arg6
  let main_cst_10 : FVec F S_ .f32 := constant S_ .f32 0x7F800000#32
  let main_v30 : FVec F S512x64 .f32 := broadcastInDim S512x64 ![] bcast_S_S512x64 main_cst_10
  let main_v31 : IVec S512x64 1 := cmpf .olt main_v29 main_v30
  let main_c_11 : IVec S_ 1 := constantI S_ 1 1#1
  let main_v32 : IVec S_ 1 := (fun x v => Host.reduce IntOp.andi x v reducesTo_S512x64_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S131072x8 .f32) (main_arg1 : FVec F S131072x512 .f32) (main_arg2 : FVec F S512x128 .f32) (main_arg3 : FVec F S128 .f32) (main_arg4 : FVec F S128x512 .f32) (main_arg5 : FVec F S512 .f32) (main_arg6 : FVec F S512x64 .f32) (main_arg7 : FVec F S64 .f32) (main_arg8 : FVec F S512x128 .f32) (main_arg9 : FVec F S128 .f32) (main_arg10 : FVec F S128x64 .f32) (main_arg11 : FVec F S64 .f32) (main_arg12 : FVec F S512x64 .f32) (main_arg13 : FVec F S64 .f32) (main_arg14 : FVec F S64x1 .f32) (main_arg15 : FVec F S1 .f32) : IVec S_ 1 :=
  let main_v0 : FVec F S131072x8 .f32 := Host.absf main_arg0
  let main_cst : FVec F S_ .f32 := constant S_ .f32 0x7F800000#32
  let main_v1 : FVec F S131072x8 .f32 := broadcastInDim S131072x8 ![] bcast_S_S131072x8 main_cst
  let main_v2 : IVec S131072x8 1 := cmpf .olt main_v0 main_v1
  let main_c : IVec S_ 1 := constantI S_ 1 1#1
  let main_v3 : IVec S_ 1 := (fun x v => Host.reduce IntOp.andi x v reducesTo_S131072x8_S_d0_1 h_S_) main_v2 main_c
  let main_v4 : FVec F S131072x512 .f32 := Host.absf main_arg1
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S131072x8 : Shape := ⟨2, ![131072, 8]⟩
abbrev S131072x512 : Shape := ⟨2, ![131072, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S512x64 : Shape := ⟨2, ![512, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S512x256 : Shape := ⟨2, ![512, 256]⟩
abbrev S256 : Shape := ⟨1, ![256]⟩
abbrev S1x256 : Shape := ⟨2, ![1, 256]⟩
abbrev S1x128 : Shape := ⟨2, ![1, 128]⟩
abbrev S1x512 : Shape := ⟨2, ![1, 512]⟩
abbrev S1x64 : Shape := ⟨2, ![1, 64]⟩
abbrev S1x1 : Shape := ⟨2, ![1, 1]⟩
abbrev S131072x1 : Shape := ⟨2, ![131072, 1]⟩
abbrev S2048x8 : Shape := ⟨2, ![2048, 8]⟩
abbrev S2048x512 : Shape := ⟨2, ![2048, 512]⟩
abbrev S2048x1 : Shape := ⟨2, ![2048, 1]⟩
abbrev S2048x256 : Shape := ⟨2, ![2048, 256]⟩
abbrev S2048x128 : Shape := ⟨2, ![2048, 128]⟩
abbrev S2048x64 : Shape := ⟨2, ![2048, 64]⟩
abbrev S2048 : Shape := ⟨1, ![2048]⟩

abbrev nBuf : Space → Nat
  | .hbm => 31
  | .vmem => 16
  | .smem => 0
  | _ => 0

abbrev bufTy : (tb : Table) → Fin (tcTables nBuf tb) → BufTy
  | .hbm, ⟨0, _⟩ => ⟨S131072x8, .f32⟩
  | .hbm, ⟨1, _⟩ => ⟨S131072x512, .f32⟩
  | .hbm, ⟨2, _⟩ => ⟨S512x128, .f32⟩
  | .hbm, ⟨3, _⟩ => ⟨S128, .f32⟩
  | .hbm, ⟨4, _⟩ => ⟨S128x512, .f32⟩
  | .hbm, ⟨5, _⟩ => ⟨S512, .f32⟩
  | .hbm, ⟨6, _⟩ => ⟨S512x64, .f32⟩
  | .hbm, ⟨7, _⟩ => ⟨S64, .f32⟩
  | .hbm, ⟨8, _⟩ => ⟨S512x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S512x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S512x256, .f32⟩
  | .hbm, ⟨17, _⟩ => ⟨S256, .f32⟩
  | .hbm, ⟨18, _⟩ => ⟨S1x256, .f32⟩
  | .hbm, ⟨19, _⟩ => ⟨S512x128, .f32⟩
  | .hbm, ⟨20, _⟩ => ⟨S128, .f32⟩
  | .hbm, ⟨21, _⟩ => ⟨S1x128, .f32⟩
  | .hbm, ⟨22, _⟩ => ⟨S512x256, .bf16⟩
  | .hbm, ⟨23, _⟩ => ⟨S512x128, .bf16⟩
  | .hbm, ⟨24, _⟩ => ⟨S128x512, .bf16⟩
  | .hbm, ⟨25, _⟩ => ⟨S128x64, .bf16⟩
  | .hbm, ⟨26, _⟩ => ⟨S1x512, .f32⟩
  | .hbm, ⟨27, _⟩ => ⟨S1x64, .f32⟩
  | .hbm, ⟨28, _⟩ => ⟨S1x1, .f32⟩
  | .hbm, ⟨29, _⟩ => ⟨S1x64, .f32⟩
  | .hbm, ⟨30, _⟩ => ⟨S131072x1, .f32⟩
  | .local _ .vmem, ⟨0, _⟩ => ⟨S2048x8, .f32⟩
  | .local _ .vmem, ⟨1, _⟩ => ⟨S2048x8, .f32⟩
  | .local _ .vmem, ⟨2, _⟩ => ⟨S2048x512, .f32⟩
  | .local _ .vmem, ⟨3, _⟩ => ⟨S2048x512, .f32⟩
  | .local _ .vmem, ⟨4, _⟩ => ⟨S512x256, .bf16⟩
  | .local _ .vmem, ⟨5, _⟩ => ⟨S1x256, .f32⟩
  | .local _ .vmem, ⟨6, _⟩ => ⟨S128x512, .bf16⟩
  | .local _ .vmem, ⟨7, _⟩ => ⟨S1x512, .f32⟩
  | .local _ .vmem, ⟨8, _⟩ => ⟨S512x128, .bf16⟩
  | .local _ .vmem, ⟨9, _⟩ => ⟨S1x128, .f32⟩
  | .local _ .vmem, ⟨10, _⟩ => ⟨S128x64, .bf16⟩
  | .local _ .vmem, ⟨11, _⟩ => ⟨S1x64, .f32⟩
  | .local _ .vmem, ⟨12, _⟩ => ⟨S1x64, .f32⟩
  | .local _ .vmem, ⟨13, _⟩ => ⟨S1x1, .f32⟩
  | .local _ .vmem, ⟨14, _⟩ => ⟨S2048x1, .f32⟩
  | .local _ .vmem, ⟨15, _⟩ => ⟨S2048x1, .f32⟩
  | _, _ => ⟨S131072x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  concatenates_S512x128_S512x128_S512x256_d1 : Shape.Concatenates [S512x128, S512x128] S512x256 1
  concatenates_S128_S128_S256_d0 : Shape.Concatenates [S128, S128] S256 0
  shapeCasts_S256_S1x256 : S256.ShapeCasts S1x256
  concatenates_S512x64_S512x64_S512x128_d1 : Shape.Concatenates [S512x64, S512x64] S512x128 1
  concatenates_S64_S64_S128_d0 : Shape.Concatenates [S64, S64] S128 0
  shapeCasts_S128_S1x128 : S128.ShapeCasts S1x128
  bitsLt_bf16_f32 : FTy.bits .bf16 < FTy.bits .f32
  shapeCasts_S512_S1x512 : S512.ShapeCasts S1x512
  shapeCasts_S64_S1x64 : S64.ShapeCasts S1x64
  shapeCasts_S1_S1x1 : S1.ShapeCasts S1x1
  shapeCasts_S64x1_S1x64 : S64x1.ShapeCasts S1x64
  inb_S2048x512_S2048x512_0_0 : ∀ a, (![0, 0] : Fin 2 → Nat) a + S2048x512.size a ≤ S2048x512.size a
  h_S2048x512 : 0 < S2048x512.numel
  inb_S2048x8_S2048x8_0_0 : ∀ a, (![0, 0] : Fin 2 → Nat) a + S2048x8.size a ≤ S2048x8.size a
  h_S2048x8 : 0 < S2048x8.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S2048x256_o0_0_S2048x128 : S2048x256.Slices ![0, 0] S2048x128
  slices_S2048x256_o0_128_S2048x128 : S2048x256.Slices ![0, 128] S2048x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S2048x128_o0_0_S2048x64 : S2048x128.Slices ![0, 0] S2048x64
  slices_S2048x128_o0_64_S2048x64 : S2048x128.Slices ![0, 64] S2048x64
  slices_S2048x8_o0_0_S2048x1 : S2048x8.Slices ![0, 0] S2048x1
  slices_S2048x512_o0_0_S2048x64 : S2048x512.Slices ![0, 0] S2048x64
  broadcasts_S2048x1_S2048x64 : S2048x1.Broadcasts S2048x64
  slices_S2048x8_o0_1_S2048x1 : S2048x8.Slices ![0, 1] S2048x1
  slices_S2048x512_o0_64_S2048x64 : S2048x512.Slices ![0, 64] S2048x64
  slices_S2048x8_o0_2_S2048x1 : S2048x8.Slices ![0, 2] S2048x1
  slices_S2048x512_o0_128_S2048x64 : S2048x512.Slices ![0, 128] S2048x64
  slices_S2048x8_o0_3_S2048x1 : S2048x8.Slices ![0, 3] S2048x1
  slices_S2048x512_o0_192_S2048x64 : S2048x512.Slices ![0, 192] S2048x64
  slices_S2048x8_o0_4_S2048x1 : S2048x8.Slices ![0, 4] S2048x1
  slices_S2048x512_o0_256_S2048x64 : S2048x512.Slices ![0, 256] S2048x64
  slices_S2048x8_o0_5_S2048x1 : S2048x8.Slices ![0, 5] S2048x1
  slices_S2048x512_o0_320_S2048x64 : S2048x512.Slices ![0, 320] S2048x64
  slices_S2048x8_o0_6_S2048x1 : S2048x8.Slices ![0, 6] S2048x1
  slices_S2048x512_o0_384_S2048x64 : S2048x512.Slices ![0, 384] S2048x64
  slices_S2048x8_o0_7_S2048x1 : S2048x8.Slices ![0, 7] S2048x1
  slices_S2048x512_o0_448_S2048x64 : S2048x512.Slices ![0, 448] S2048x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x512_S512x256_S2048x256_1_0_0_1_n_n_wf : DotDims.WF S2048x512 S512x256 S2048x256 [1] [0] [0] [1] [] []
  dot_S2048x128_S128x512_S2048x512_1_0_0_1_n_n_wf : DotDims.WF S2048x128 S128x512 S2048x512 [1] [0] [0] [1] [] []
  dot_S2048x512_S512x128_S2048x128_1_0_0_1_n_n_wf : DotDims.WF S2048x512 S512x128 S2048x128 [1] [0] [0] [1] [] []
  dot_S2048x128_S128x64_S2048x64_1_0_0_1_n_n_wf : DotDims.WF S2048x128 S128x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x8.size a ≤ S131072x8.size a
  hwx0_0 : ∀ i : grid0.Coords, EltTy.bits .f32 = 32 ∨ (Rect.block (s := S131072x8) S2048x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S131072x512.size a
  hwx0_1 : ∀ i : grid0.Coords, EltTy.bits .f32 = 32 ∨ (Rect.block (s := S131072x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .bf16 = 32 ∨ (Rect.block (s := S512x128) S512x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .bf16 = 32 ∨ (Rect.block (s := S128x64) S128x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x1.size a ≤ S131072x1.size a
  hwx0_12 : ∀ i : grid0.Coords, EltTy.bits .f32 = 32 ∨ (Rect.block (s := S131072x1) S2048x1.size (cc0_transform_12 i) (hinb0_12 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf

abbrev win0_0 : Pipeline.Window sig grid0 :=
  Pipeline.Window.ofSpec (Memref.whole main_arg0) S2048x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S512x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S2048x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S131072x8 : Shape := ⟨2, ![131072, 8]⟩
abbrev S131072x512 : Shape := ⟨2, ![131072, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S512x64 : Shape := ⟨2, ![512, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S131072x128 : Shape := ⟨2, ![131072, 128]⟩
abbrev S1x128 : Shape := ⟨2, ![1, 128]⟩
abbrev S_ : Shape := ⟨0, ![]⟩
abbrev S1x512 : Shape := ⟨2, ![1, 512]⟩
abbrev S131072x8x64 : Shape := ⟨3, ![131072, 8, 64]⟩
abbrev S131072x64 : Shape := ⟨2, ![131072, 64]⟩
abbrev S1x64 : Shape := ⟨2, ![1, 64]⟩
abbrev S131072x1x64 : Shape := ⟨3, ![131072, 1, 64]⟩
abbrev S131072x1x8 : Shape := ⟨3, ![131072, 1, 8]⟩
abbrev S131072x64x1 : Shape := ⟨3, ![131072, 64, 1]⟩
abbrev S131072x1 : Shape := ⟨2, ![131072, 1]⟩
abbrev S1x1 : Shape := ⟨2, ![1, 1]⟩
abbrev S131072x1x1 : Shape := ⟨3, ![131072, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S131072x8, .f32⟩
  | .hbm, ⟨1, _⟩ => ⟨S131072x512, .f32⟩
  | .hbm, ⟨2, _⟩ => ⟨S512x128, .f32⟩
  | .hbm, ⟨3, _⟩ => ⟨S128, .f32⟩
  | .hbm, ⟨4, _⟩ => ⟨S128x512, .f32⟩
  | .hbm, ⟨5, _⟩ => ⟨S512, .f32⟩
  | .hbm, ⟨6, _⟩ => ⟨S512x64, .f32⟩
  | .hbm, ⟨7, _⟩ => ⟨S64, .f32⟩
  | .hbm, ⟨8, _⟩ => ⟨S512x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S512x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S131072x128, .f32⟩
  | .hbm, ⟨17, _⟩ => ⟨S1x128, .f32⟩
  | .hbm, ⟨18, _⟩ => ⟨S131072x128, .f32⟩
  | .hbm, ⟨19, _⟩ => ⟨S131072x128, .f32⟩
  | .hbm, ⟨20, _⟩ => ⟨S_, .f32⟩
  | .hbm, ⟨21, _⟩ => ⟨S131072x128, .f32⟩
  | .hbm, ⟨22, _⟩ => ⟨S131072x128, .f32⟩
  | .hbm, ⟨23, _⟩ => ⟨S131072x512, .f32⟩
  | .hbm, ⟨24, _⟩ => ⟨S1x512, .f32⟩
  | .hbm, ⟨25, _⟩ => ⟨S131072x512, .f32⟩
  | .hbm, ⟨26, _⟩ => ⟨S131072x512, .f32⟩
  | .hbm, ⟨27, _⟩ => ⟨S131072x512, .f32⟩
  | .hbm, ⟨28, _⟩ => ⟨S131072x8x64, .f32⟩
  | .hbm, ⟨29, _⟩ => ⟨S131072x64, .f32⟩
  | .hbm, ⟨30, _⟩ => ⟨S1x64, .f32⟩
  | .hbm, ⟨31, _⟩ => ⟨S131072x64, .f32⟩
  | .hbm, ⟨32, _⟩ => ⟨S131072x64, .f32⟩
  | .hbm, ⟨33, _⟩ => ⟨S131072x1x64, .f32⟩
  | .hbm, ⟨34, _⟩ => ⟨S131072x1x8, .f32⟩
  | .hbm, ⟨35, _⟩ => ⟨S131072x1x64, .f32⟩
  | .hbm, ⟨36, _⟩ => ⟨S131072x1x64, .f32⟩
  | .hbm, ⟨37, _⟩ => ⟨S_, .f32⟩
  | .hbm, ⟨38, _⟩ => ⟨S131072x1x64, .f32⟩
  | .hbm, ⟨39, _⟩ => ⟨S131072x1x64, .i1⟩
  | .hbm, ⟨40, _⟩ => ⟨S_, .f32⟩
  | .hbm, ⟨41, _⟩ => ⟨S131072x1x64, .f32⟩
  | .hbm, ⟨42, _⟩ => ⟨S131072x1x64, .i1⟩
  | .hbm, ⟨43, _⟩ => ⟨S_, .f32⟩
  | .hbm, ⟨44, _⟩ => ⟨S_, .f32⟩
  | .hbm, ⟨45, _⟩ => ⟨S131072x1x64, .f32⟩
  | .hbm, ⟨46, _⟩ => ⟨S131072x1x64, .f32⟩
  | .hbm, ⟨47, _⟩ => ⟨S131072x1x64, .f32⟩
  | .hbm, ⟨48, _⟩ => ⟨S_, .f32⟩
  | .hbm, ⟨49, _⟩ => ⟨S131072x1x64, .f32⟩
  | .hbm, ⟨50, _⟩ => ⟨S131072x1x64, .f32⟩
  | .hbm, ⟨51, _⟩ => ⟨S131072x1x64, .f32⟩
  | .hbm, ⟨52, _⟩ => ⟨S131072x128, .f32⟩
  | .hbm, ⟨53, _⟩ => ⟨S1x128, .f32⟩
  | .hbm, ⟨54, _⟩ => ⟨S131072x128, .f32⟩
  | .hbm, ⟨55, _⟩ => ⟨S131072x128, .f32⟩
  | .hbm, ⟨56, _⟩ => ⟨S_, .f32⟩
  | .hbm, ⟨57, _⟩ => ⟨S131072x128, .f32⟩
  | .hbm, ⟨58, _⟩ => ⟨S131072x128, .f32⟩
  | .hbm, ⟨59, _⟩ => ⟨S131072x64, .f32⟩
  | .hbm, ⟨60, _⟩ => ⟨S1x64, .f32⟩
  | .hbm, ⟨61, _⟩ => ⟨S131072x64, .f32⟩
  | .hbm, ⟨62, _⟩ => ⟨S131072x64, .f32⟩
  | .hbm, ⟨63, _⟩ => ⟨S131072x64, .f32⟩
  | .hbm, ⟨64, _⟩ => ⟨S131072x64x1, .f32⟩
  | .hbm, ⟨65, _⟩ => ⟨S131072x64, .f32⟩
  | .hbm, ⟨66, _⟩ => ⟨S1x64, .f32⟩
  | .hbm, ⟨67, _⟩ => ⟨S131072x64, .f32⟩
  | .hbm, ⟨68, _⟩ => ⟨S131072x64, .f32⟩
  | .hbm, ⟨69, _⟩ => ⟨S_, .f32⟩
  | .hbm, ⟨70, _⟩ => ⟨S131072x64, .f32⟩
  | .hbm, ⟨71, _⟩ => ⟨S131072x64, .f32⟩
  | .hbm, ⟨72, _⟩ => ⟨S131072x1, .f32⟩
  | .hbm, ⟨73, _⟩ => ⟨S1x1, .f32⟩
  | .hbm, ⟨74, _⟩ => ⟨S131072x1, .f32⟩
  | .hbm, ⟨75, _⟩ => ⟨S131072x1, .f32⟩
  | .hbm, ⟨76, _⟩ => ⟨S131072x1x1, .f32⟩
  | .hbm, ⟨77, _⟩ => ⟨S131072x1x1, .f32⟩
  | .hbm, ⟨78, _⟩ => ⟨S131072x1x1, .f32⟩
  | .hbm, ⟨79, _⟩ => ⟨S131072x1, .f32⟩
  | _, _ => ⟨S131072x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_cst_1 : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_v4 : Ref sig .tc := ⟨.hbm, 46, rfl⟩
abbrev main_call1_v5 : Ref sig .tc := ⟨.hbm, 47, rfl⟩
abbrev main_call1_cst_2 : Ref sig .tc := ⟨.hbm, 48, rfl⟩
abbrev main_call1_v6 : Ref sig .tc := ⟨.hbm, 49, rfl⟩
abbrev main_call1_v7 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_call2_cst : Ref sig .tc := ⟨.hbm, 56, rfl⟩
abbrev main_call2_v0 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_call3_cst : Ref sig .tc := ⟨.hbm, 69, rfl⟩
abbrev main_call3_v0 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  shapeCasts_S131072x512_S131072x8x64 : S131072x512.ShapeCasts S131072x8x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S131072x64_S131072x1x64_0_2 : S131072x64.BroadcastsInDim S131072x1x64 (![0, 2] : Fin 2 → Fin S131072x1x64.rank)
  bcast_S131072x8_S131072x1x8_0_2 : S131072x8.BroadcastsInDim S131072x1x8 (![0, 2] : Fin 2 → Fin S131072x1x8.rank)
  bcast_S_S131072x1x64 : S_.BroadcastsInDim S131072x1x64 (![] : Fin 0 → Fin S131072x1x64.rank)
  bcast_S131072x64_S131072x64x1_0_1 : S131072x64.BroadcastsInDim S131072x64x1 (![0, 1] : Fin 2 → Fin S131072x64x1.rank)
  bcast_S_S131072x64 : S_.BroadcastsInDim S131072x64 (![] : Fin 0 → Fin S131072x64.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S131072x1_S131072x1x1_0_2 : S131072x1.BroadcastsInDim S131072x1x1 (![0, 2] : Fin 2 → Fin S131072x1x1.rank)
  shapeCasts_S131072x1x1_S131072x1 : S131072x1x1.ShapeCasts S131072x1
  dot_S131072x512_S512x128_S131072x128_1_0_0_1_n_n_wf : DotDims.WF S131072x512 S512x128 S131072x128 [1] [0] [0] [1] [] []
  dot_S131072x128_S128x512_S131072x512_1_0_0_1_n_n_wf : DotDims.WF S131072x128 S128x512 S131072x512 [1] [0] [0] [1] [] []
  dot_S131072x512_S512x64_S131072x64_1_0_0_1_n_n_wf : DotDims.WF S131072x512 S512x64 S131072x64 [1] [0] [0] [1] [] []
  dot_S131072x1x8_S131072x8x64_S131072x1x64_2_1_1_2_0_0_wf : DotDims.WF S131072x1x8 S131072x8x64 S131072x1x64 [2] [1] [1] [2] [0] [0]
  dot_S131072x128_S128x64_S131072x64_1_0_0_1_n_n_wf : DotDims.WF S131072x128 S128x64 S131072x64 [1] [0] [0] [1] [] []
  dot_S131072x64_S64x1_S131072x1_1_0_0_1_n_n_wf : DotDims.WF S131072x64 S64x1 S131072x1 [1] [0] [0] [1] [] []
  dot_S131072x1x64_S131072x64x1_S131072x1x1_2_1_1_2_0_0_wf : DotDims.WF S131072x1x64 S131072x64x1 S131072x1x1 [2] [1] [1] [2] [0] [0]

variable [Facts₀]

def dot_S131072x512_S512x128_S131072x128_1_0_0_1_n_n : DotDims S131072x512 S512x128 S131072x128 where
  lhsContracting := [1]
  rhsContracting := [0]
  lhsNonContracting := [0]
  rhsNonContracting := [1]
  lhsBatch := []
  rhsBatch := []
  wf := dot_S131072x512_S512x128_S131072x128_1_0_0_1_n_n_wf
def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf
def dot_S131072x512_S512x64_S131072x64_1_0_0_1_n_n : DotDims S131072x512 S512x64 S131072x64 where
  lhsContracting := [1]
  rhsContracting := [0]
  lhsNonContracting := [0]
  rhsNonContracting := [1]
  lhsBatch := []
  rhsBatch := []
  wf := dot_S131072x512_S512x64_S131072x64_1_0_0_1_n_n_wf
def dot_S131072x1x8_S131072x8x64_S131072x1x64_2_1_1_2_0_0 : DotDims S131072x1x8 S131072x8x64 S131072x1x64 where
  lhsContracting := [2]
  rhsContracting := [1]
  lhsNonContracting := [1]
  rhsNonContracting := [2]
  lhsBatch := [0]
  rhsBatch := [0]
  wf := dot_S131072x1x8_S131072x8x64_S131072x1x64_2_1_1_2_0_0_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf
def dot_S131072x1x64_S131072x64x1_S131072x1x1_2_1_1_2_0_0 : DotDims S131072x1x64 S131072x64x1 S131072x1x1 where
  lhsContracting := [2]
  rhsContracting := [1]
  lhsNonContracting := [1]
  rhsNonContracting := [2]
  lhsBatch := [0]
  rhsBatch := [0]
  wf := dot_S131072x1x64_S131072x64x1_S131072x1x1_2_1_1_2_0_0_wf

class Facts : Prop extends Facts₀ where

variable [Facts]
-- ==== Proof.Halves.lean ====
/-
  The two halves of a row of 256 and of a row of 128: a program that keeps two weight matrices side by side in one array
  reads the first matrix's column `j` at `lo j` and the second matrix's column `j` at `hi j`.
-/
import Mathlib.Data.Fin.Basic

namespace Cert.Mixer

/-- Column `j` of the left half of 256 columns. -/
def lo128 (j : Fin 128) : Fin 256 := ⟨j.val, by omega⟩
/-- Column `j` of the right half of 256 columns: `128 + j`. -/
def hi128 (j : Fin 128) : Fin 256 := ⟨128 + j.val, by omega⟩
/-- Column `m` of the left half of 128 columns. -/
def lo64 (m : Fin 64) : Fin 128 := ⟨m.val, by omega⟩
/-- Column `m` of the right half of 128 columns: `64 + m`. -/
def hi64 (m : Fin 64) : Fin 128 := ⟨64 + m.val, by omega⟩

theorem lo128_val (j : Fin 128) : (lo128 j).val = j.val := rfl
theorem hi128_val (j : Fin 128) : (hi128 j).val = 128 + j.val := rfl
theorem lo64_val (m : Fin 64) : (lo64 m).val = m.val := rfl
theorem hi64_val (m : Fin 64) : (hi64 m).val = 64 + m.val := rfl

end Cert.Mixer
-- ==== Proof.KernelArrays.lean ====
/-
  The arrays the kernel's region finds, as functions of the program's arguments.

  Before the region the program lays its weights out for the kernel: `W1a` and `W2a` side by side in one 512 × 256
  array (and their biases in one row of 256), `Wb1` and `Wb2a` side by side in one 512 × 128 array (their biases in one
  row of 128), each bias vector as a one-row matrix, the last layer's 64 × 1 weight column as a one-row matrix, and the
  four weight matrices narrowed to bf16 — which on the extended reals changes nothing. Read at an index: column `lo j`
  of a side-by-side array is column `j` of its left matrix, column `hi j` is column `j` of its right matrix; entry
  `(0, q)` of a bias row is entry `q` of the bias.
-/
import proofs.«155231_j82678120448731_2_alg».proof.Proof.ValuePatched
import proofs.«155231_j82678120448731_2_alg».proof.Proof.Halves
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.RowValue

open Cert.KernelIdeal Cert.KernelIdeal.Gen Idealize.ShloMosaic Idealize.ShloMosaic.TcCoe Idealize.SL.Sem
open Idealize.ShloMosaic.ValueIdx Cert.Mixer Idealize.ShloMosaic.StableHlo

variable (m : (ℓ : Loc nD τ sig) → Buf (Elt Ideal) ℓ)

/-! ## The region's arrays as terms of the arguments -/

theorem V_v6 (c : Dev nD) : (V m c main_v6 : S512x256.Idx → EReal)
    = truncf (F := Ideal) .bf16 (concatenate S512x256 1 [⟨S512x128, m ((c : Thread nD τ).loc main_arg2)⟩, ⟨S512x128, m ((c : Thread nD τ).loc main_arg8)⟩] concatenates_S512x128_S512x128_S512x256_d1) bitsLt_bf16_f32 := by
  dsimp only [Gen.V, Gen.hostOps0]; after_results

theorem V_v2 (c : Dev nD) : (V m c main_v2 : S1x256.Idx → EReal)
    = shapeCast S1x256 (concatenate S256 0 [⟨S128, m ((c : Thread nD τ).loc main_arg3)⟩, ⟨S128, m ((c : Thread nD τ).loc main_arg9)⟩] concatenates_S128_S128_S256_d0) shapeCasts_S256_S1x256 := by
  dsimp only [Gen.V, Gen.hostOps0]; after_results; rfl

theorem V_v8 (c : Dev nD) : (V m c main_v8 : S128x512.Idx → EReal) = truncf (F := Ideal) .bf16 (m ((c : Thread nD τ).loc main_arg4)) bitsLt_bf16_f32 := by
  dsimp only [Gen.V, Gen.hostOps0]; after_results

theorem V_v10 (c : Dev nD) : (V m c main_v10 : S1x512.Idx → EReal) = shapeCast S1x512 (m ((c : Thread nD τ).loc main_arg5)) shapeCasts_S512_S1x512 := by
  dsimp only [Gen.V, Gen.hostOps0]; after_results; rfl

theorem V_v7 (c : Dev nD) : (V m c main_v7 : S512x128.Idx → EReal)
    = truncf (F := Ideal) .bf16 (concatenate S512x128 1 [⟨S512x64, m ((c : Thread nD τ).loc main_arg6)⟩, ⟨S512x64, m ((c : Thread nD τ).loc main_arg12)⟩] concatenates_S512x64_S512x64_S512x128_d1) bitsLt_bf16_f32 := by
  dsimp only [Gen.V, Gen.hostOps0]; after_results

theorem V_v5 (c : Dev nD) : (V m c main_v5 : S1x128.Idx → EReal)
    = shapeCast S1x128 (concatenate S128 0 [⟨S64, m ((c : Thread nD τ).loc main_arg7)⟩, ⟨S64, m ((c : Thread nD τ).loc main_arg13)⟩] concatenates_S64_S64_S128_d0) shapeCasts_S128_S1x128 := by
  dsimp only [Gen.V, Gen.hostOps0]; after_results; rfl

theorem V_v9 (c : Dev nD) : (V m c main_v9 : S128x64.Idx → EReal) = truncf (F := Ideal) .bf16 (m ((c : Thread nD τ).loc main_arg10)) bitsLt_bf16_f32 := by
  dsimp only [Gen.V, Gen.hostOps0]; after_results

theorem V_v11 (c : Dev nD) : (V m c main_v11 : S1x64.Idx → EReal) = shapeCast S1x64 (m ((c : Thread nD τ).loc main_arg11)) shapeCasts_S64_S1x64 := by
  dsimp only [Gen.V, Gen.hostOps0]; after_results; rfl

theorem V_v13 (c : Dev nD) : (V m c main_v13 : S1x64.Idx → EReal) = shapeCast S1x64 (m ((c : Thread nD τ).loc main_arg14)) shapeCasts_S64x1_S1x64 := by
  dsimp only [Gen.V, Gen.hostOps0]; after_results; rfl

theorem V_v12 (c : Dev nD) : (V m c main_v12 : S1x1.Idx → EReal) = shapeCast S1x1 (m ((c : Thread nD τ).loc main_arg15)) shapeCasts_S1_S1x1 := by
  dsimp only [Gen.V, Gen.hostOps0]; after_results; rfl

end Cert.KernelIdeal.RowValue

end
-- ==== Proof.LibSideBySide.lean ====
/-
  Two arrays laid side by side, read at an index, and a one-column matrix turned into a one-row matrix.

  A program that wants one matrix product to serve two layers keeps the two weight matrices side by side in one array
  (a concatenation along the columns) and the two bias vectors end to end in one vector. Read at an index, the pair is
  its left piece where the coordinate along the joined axis is below the left piece's extent `a`, and its right piece,
  at that coordinate less `a`, from `a` on. Stated for any two `r × a` matrices (columns `j` and `a + j` of the pair)
  and any two vectors of length `a` (positions `j` and `a + j`); the position in the pair is a parameter `J` with its
  value given, so that a caller's own injection into the pair's columns fits by `rfl`.
  A shape cast keeps row-major positions: entry `(q, 0)` of an `a × 1` column and entry `(0, q)` of the `1 × a` row it is
  cast to both sit at position `q`.
-/
import Idealize.ShloMosaic.Lib.Pipeline.Value
import Idealize.ShloMosaic.Lib.ValueIdx
import Idealize.ShloMosaic.Lib.ValueLayout

namespace Cert.LibSideBySide

open Idealize.ShloMosaic Idealize.ShloMosaic.ValueIdx

variable {α : Type}

/-! ## Two pieces side by side -/

/-- Column `j` of the left of two `r × a` matrices laid side by side. -/
theorem pair_cols_left {r a t : ℕ} (x₁ x₂ : (⟨2, ![r, a]⟩ : Shape).Idx → α)
    (h : Shape.Concatenates [(⟨2, ![r, a]⟩ : Shape), ⟨2, ![r, a]⟩] ⟨2, ![r, t]⟩ 1) (k : Fin r) (j : Fin a) (J : Fin t)
    (hJ : J.val = j.val) :
    concatenate ⟨2, ![r, t]⟩ 1 [⟨⟨2, ![r, a]⟩, x₁⟩, ⟨⟨2, ![r, a]⟩, x₂⟩] h (ix2 k J) = x₁ (ix2 k j) :=
  concatenate_pair_apply_left 1 x₁ x₂ h (ix2 k J) rfl (ix2 k j) (fun b => by
    match b with
    | ⟨0, _⟩ => rfl
    | ⟨1, _⟩ => exact hJ.symm)

/-- Column `j` of the right of two `r × a` matrices laid side by side sits at column `a + j` of the pair. -/
theorem pair_cols_right {r a t : ℕ} (x₁ x₂ : (⟨2, ![r, a]⟩ : Shape).Idx → α)
    (h : Shape.Concatenates [(⟨2, ![r, a]⟩ : Shape), ⟨2, ![r, a]⟩] ⟨2, ![r, t]⟩ 1) (k : Fin r) (j : Fin a) (J : Fin t)
    (hJ : J.val = a + j.val) :
    concatenate ⟨2, ![r, t]⟩ 1 [⟨⟨2, ![r, a]⟩, x₁⟩, ⟨⟨2, ![r, a]⟩, x₂⟩] h (ix2 k J) = x₂ (ix2 k j) :=
  concatenate_pair_apply_right 1 x₁ x₂ h (ix2 k J) rfl rfl (ix2 k j) (fun b hb => by
    match b with
    | ⟨0, _⟩ => rfl
    | ⟨1, _⟩ => exact absurd rfl hb) (by
    show j.val + a = J.val
    omega)

/-- Entry `j` of the first of two vectors of length `a` laid end to end. -/
theorem pair_vec_left {a t : ℕ} (x₁ x₂ : (⟨1, ![a]⟩ : Shape).Idx → α)
    (h : Shape.Concatenates [(⟨1, ![a]⟩ : Shape), ⟨1, ![a]⟩] ⟨1, ![t]⟩ 0) (j : Fin a) (J : Fin t) (hJ : J.val = j.val) :
    concatenate ⟨1, ![t]⟩ 0 [⟨⟨1, ![a]⟩, x₁⟩, ⟨⟨1, ![a]⟩, x₂⟩] h (ix1 J) = x₁ (ix1 j) :=
  concatenate_pair_apply_left 0 x₁ x₂ h (ix1 J) rfl (ix1 j) (fun b => by
    match b with
    | ⟨0, _⟩ => exact hJ.symm)

/-- Entry `j` of the second of two vectors of length `a` laid end to end sits at position `a + j`. -/
theorem pair_vec_right {a t : ℕ} (x₁ x₂ : (⟨1, ![a]⟩ : Shape).Idx → α)
    (h : Shape.Concatenates [(⟨1, ![a]⟩ : Shape), ⟨1, ![a]⟩] ⟨1, ![t]⟩ 0) (j : Fin a) (J : Fin t) (hJ : J.val = a + j.val) :
    concatenate ⟨1, ![t]⟩ 0 [⟨⟨1, ![a]⟩, x₁⟩, ⟨⟨1, ![a]⟩, x₂⟩] h (ix1 J) = x₂ (ix1 j) :=
  concatenate_pair_apply_right 0 x₁ x₂ h (ix1 J) rfl rfl (ix1 j) (fun b hb => by
    match b with
    | ⟨0, _⟩ => exact absurd rfl hb) (by
    show j.val + a = J.val
    omega)

/-- A one-column matrix cast to a one-row matrix: entry `(0, q)` of the row is entry `(q, 0)` of the column. -/
theorem shapeCast_a1_1a_apply {a : ℕ} (x : (⟨2, ![a, 1]⟩ : Shape).Idx → α)
    (h : (⟨2, ![a, 1]⟩ : Shape).ShapeCasts ⟨2, ![1, a]⟩) (q : Fin a) :
    shapeCast ⟨2, ![1, a]⟩ x h (ix2 (0 : Fin 1) q) = x (ix2 q (0 : Fin 1)) :=
  shapeCast_apply x h _ _ (by
    rw [Shape.rowMajor_val_two, Shape.rowMajor_val_two]
    show q.val * 1 + 0 = 0 * a + q.val
    omega)

end Cert.LibSideBySide
-- ==== Proof.KernelArraysAt.lean ====
/-
  The arrays the kernel's region finds, read at an index.

  Column `lo j` of a pair of weight matrices kept side by side is column `j` of the left matrix and column `hi j` is
  column `j` of the right one; likewise for the two bias vectors laid end to end and then cast to one row. A bias vector
  cast to a one-row matrix keeps its entries, the last layer's one-column weight matrix cast to a one-row matrix turns
  entry `(q, 0)` into entry `(0, q)`, and narrowing to bf16 is the identity on the extended reals.
-/
import proofs.«155231_j82678120448731_2_alg».proof.Proof.KernelArrays
import proofs.«155231_j82678120448731_2_alg».proof.Proof.LibSideBySide

noncomputable section

namespace Cert.KernelIdeal.RowValue

open Cert.KernelIdeal Cert.KernelIdeal.Gen Idealize.ShloMosaic Idealize.ShloMosaic.TcCoe Idealize.SL.Sem
open Idealize.ShloMosaic.ValueIdx Cert.Mixer Cert.LibSideBySide

/-! ## The region's arrays at an index -/

variable (m : (ℓ : Loc nD τ sig) → Buf (Elt Ideal) ℓ) (c : Dev nD)

theorem Wa_lo (k : Fin 512) (j : Fin 128) : V m c main_v6 (ix2 k (lo128 j)) = m ((c : Thread nD τ).loc main_arg2) (ix2 k j) := by
  rw [V_v6]; exact pair_cols_left (m ((c : Thread nD τ).loc main_arg2)) (m ((c : Thread nD τ).loc main_arg8)) concatenates_S512x128_S512x128_S512x256_d1 k j (lo128 j) rfl
theorem Wa_hi (k : Fin 512) (j : Fin 128) : V m c main_v6 (ix2 k (hi128 j)) = m ((c : Thread nD τ).loc main_arg8) (ix2 k j) := by
  rw [V_v6]; exact pair_cols_right (m ((c : Thread nD τ).loc main_arg2)) (m ((c : Thread nD τ).loc main_arg8)) concatenates_S512x128_S512x128_S512x256_d1 k j (hi128 j) rfl
theorem ba_lo (j : Fin 128) : V m c main_v2 (ix2 (0 : Fin 1) (lo128 j)) = m ((c : Thread nD τ).loc main_arg3) (ix1 j) := by
  rw [V_v2, shapeCast_a_1a_apply]; exact pair_vec_left _ _ _ j (lo128 j) rfl
theorem ba_hi (j : Fin 128) : V m c main_v2 (ix2 (0 : Fin 1) (hi128 j)) = m ((c : Thread nD τ).loc main_arg9) (ix1 j) := by
  rw [V_v2, shapeCast_a_1a_apply]; exact pair_vec_right _ _ _ j (hi128 j) rfl
theorem W1b_at (j : Fin 128) (n : Fin 512) : V m c main_v8 (ix2 j n) = m ((c : Thread nD τ).loc main_arg4) (ix2 j n) := by
  rw [V_v8]; rfl
theorem b1b_at (n : Fin 512) : V m c main_v10 (ix2 (0 : Fin 1) n) = m ((c : Thread nD τ).loc main_arg5) (ix1 n) := by
  rw [V_v10, shapeCast_a_1a_apply]
theorem Wb_lo (k : Fin 512) (q : Fin 64) : V m c main_v7 (ix2 k (lo64 q)) = m ((c : Thread nD τ).loc main_arg6) (ix2 k q) := by
  rw [V_v7]; exact pair_cols_left (m ((c : Thread nD τ).loc main_arg6)) (m ((c : Thread nD τ).loc main_arg12)) concatenates_S512x64_S512x64_S512x128_d1 k q (lo64 q) rfl
theorem Wb_hi (k : Fin 512) (q : Fin 64) : V m c main_v7 (ix2 k (hi64 q)) = m ((c : Thread nD τ).loc main_arg12) (ix2 k q) := by
  rw [V_v7]; exact pair_cols_right (m ((c : Thread nD τ).loc main_arg6)) (m ((c : Thread nD τ).loc main_arg12)) concatenates_S512x64_S512x64_S512x128_d1 k q (hi64 q) rfl
theorem bb_lo (q : Fin 64) : V m c main_v5 (ix2 (0 : Fin 1) (lo64 q)) = m ((c : Thread nD τ).loc main_arg7) (ix1 q) := by
  rw [V_v5, shapeCast_a_1a_apply]; exact pair_vec_left _ _ _ q (lo64 q) rfl
theorem bb_hi (q : Fin 64) : V m c main_v5 (ix2 (0 : Fin 1) (hi64 q)) = m ((c : Thread nD τ).loc main_arg13) (ix1 q) := by
  rw [V_v5, shapeCast_a_1a_apply]; exact pair_vec_right _ _ _ q (hi64 q) rfl
theorem W2b_at (j : Fin 128) (q : Fin 64) : V m c main_v9 (ix2 j q) = m ((c : Thread nD τ).loc main_arg10) (ix2 j q) := by
  rw [V_v9]; rfl
theorem b2b_at (q : Fin 64) : V m c main_v11 (ix2 (0 : Fin 1) q) = m ((c : Thread nD τ).loc main_arg11) (ix1 q) := by
  rw [V_v11, shapeCast_a_1a_apply]
theorem wb2b_at (q : Fin 64) : V m c main_v13 (ix2 (0 : Fin 1) q) = m ((c : Thread nD τ).loc main_arg14) (ix2 q (0 : Fin 1)) := by
  rw [V_v13, shapeCast_a1_1a_apply]
theorem bb2b_at : V m c main_v12 (ix2 (0 : Fin 1) (0 : Fin 1)) = m ((c : Thread nD τ).loc main_arg15) (ix1 (0 : Fin 1)) := by
  rw [V_v12, shapeCast_a_1a_apply]

end Cert.KernelIdeal.RowValue

end
-- ==== Proof.Spec.lean ====
/-
  The mixing network, one row at a time, on the extended reals.

  For one row of the state `s` (512 numbers) and one row of the agents' values `q` (8 numbers) the network computes

    h1   = max (s · W1a + b1a) 0                      (128 numbers)
    w1   = |h1 · W1b + b1b|                           (512 numbers, read as 8 groups of 64: `lane a m`)
    b1   = s · Wb1 + bb1                              (64 numbers)
    hid  = elu ((∑ a, q a · w1 (lane a m)) + b1 m)    (64 numbers)
    h2   = max (s · W2a + b2a) 0                      (128 numbers)
    w2   = |h2 · W2b + b2b|                           (64 numbers)
    hb2  = max (s · Wb2a + bb2a) 0                    (64 numbers)
    out  = (∑ m, hid m · w2 m) + ((∑ m, hb2 m · wb2b m) + bb2b)

  Every weight enters as a function of its two coordinates and every bias as a function of its coordinate, so that a
  program holding two weight matrices side by side in one array, or a bias as a one-row matrix, instantiates the same
  function. The output of a row depends on that row of `s` and `q` only: evaluating the network block of rows by block
  of rows gives the same numbers as evaluating it on all rows at once.
-/
import Idealize.ShloMosaic.Lib.ValueIdx
import Idealize.ShloMosaic.PureOps.Ideal

noncomputable section

open scoped BigOperators

namespace Cert.Mixer

open Idealize.ShloMosaic

/-- Output `q` of a dense layer applied to one row `x`: `(∑ k, x k · w k q) + b q`. -/
def rowDense {K N : ℕ} (x : Fin K → EReal) (w : Fin K → Fin N → EReal) (b : Fin N → EReal) (q : Fin N) : EReal :=
  (∑ k : Fin K, x k * w k q) + b q

/-- The absolute value of an extended real. -/
def absE (x : EReal) : EReal := max x (-x)

/-- The exponential linear unit: the identity on positive numbers, `exp x - 1` elsewhere. -/
def elu (x : EReal) : EReal := if 0 < x then x else Ideal.exp x - 1

/-- Position `a · 64 + m` of a row of 512 read as 8 groups of 64. -/
def lane (a : Fin 8) (m : Fin 64) : Fin 512 := ⟨a.val * 64 + m.val, by omega⟩

theorem lane_val (a : Fin 8) (m : Fin 64) : (lane a m).val = a.val * 64 + m.val := rfl

/-- The network's output for one row. -/
def rowOut (srow : Fin 512 → EReal) (qrow : Fin 8 → EReal)
    (W1a : Fin 512 → Fin 128 → EReal) (b1a : Fin 128 → EReal)
    (W1b : Fin 128 → Fin 512 → EReal) (b1b : Fin 512 → EReal)
    (Wb1 : Fin 512 → Fin 64 → EReal) (bb1 : Fin 64 → EReal)
    (W2a : Fin 512 → Fin 128 → EReal) (b2a : Fin 128 → EReal)
    (W2b : Fin 128 → Fin 64 → EReal) (b2b : Fin 64 → EReal)
    (Wb2a : Fin 512 → Fin 64 → EReal) (bb2a : Fin 64 → EReal)
    (wb2b : Fin 64 → EReal) (bb2b : EReal) : EReal :=
  (∑ m : Fin 64,
      elu ((∑ a : Fin 8, qrow a * absE (rowDense (fun j => max (rowDense srow W1a b1a j) 0) W1b b1b (lane a m)))
            + rowDense srow Wb1 bb1 m)
        * absE (rowDense (fun j => max (rowDense srow W2a b2a j) 0) W2b b2b m))
    + ((∑ m : Fin 64, max (rowDense srow Wb2a bb2a m) 0 * wb2b m) + bb2b)

/-- A select on "strictly greater" is an `if` on the order. -/
theorem select_ogt (x z a b : EReal) : Scalar.select (Ideal.cmp .ogt x z) a b = if z < x then a else b := by
  unfold Scalar.select Ideal.cmp
  by_cases h : z < x <;> simp [h]

/-- The exponential linear unit as a kernel spells it: where `x` is not positive, `min x 0` is `x`. -/
theorem elu_of_min (x : EReal) : (if 0 < x then x else Ideal.exp (min x 0) - 1) = elu x := by
  unfold elu
  by_cases h : 0 < x
  · rw [if_pos h, if_pos h]
  · rw [if_neg h, if_neg h, min_eq_left (not_lt.mp h)]

/-- The exponential linear unit as jax spells it: where `x` is not positive the guarded argument is `x`, and the
    unit scale is the identity. -/
theorem elu_of_guard (x : EReal) :
    (if 0 < x then x else 1 * (Ideal.exp (if 0 < x then 0 else x) - 1)) = elu x := by
  unfold elu
  by_cases h : 0 < x
  · rw [if_pos h, if_pos h]
  · rw [if_neg h, if_neg h, if_neg h, one_mul]

end Cert.Mixer

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.PayRow.lean ====
/-
  The kernel body's stored value, read one row at a time on the extended reals.

  The body holds the network's arithmetic as eleven pure terms over the arrays it loads: a block of 2048 rows of the
  state `s` and of the agents' values `q`, and the weights, with the two hypernetworks' first layers side by side in one
  512 × 256 matrix, the two bias networks' first layers side by side in one 512 × 128 matrix, and every bias vector as
  a one-row matrix. Each lemma below reads one of these terms at an entry `(p, j)`: a matrix product into a zero
  accumulator is the sum over the contracted coordinate, a bias row broadcast over the rows is the bias at the column, a
  slice along the columns at offset `o` reads column `o + j` (the left and right halves `lo` / `hi` of a pair of matrices
  kept side by side, or group `a` of the 512 mixing weights, `lane a m`), a column broadcast over the lanes reads the
  column's entry, and a sum over the lanes of a row is the finite sum over the lane. On the extended reals every
  operation is exact and a change of format is the identity, so row `p` of the stored column is `rowOut` of row `p` of
  `s` and `q`: the kernel adds the eight agents' terms one after another onto the bias, the specification adds the bias
  to their sum, and addition of extended reals is associative and commutative.
-/
import proofs.«155231_j82678120448731_2_alg».proof.Proof.Gen.KernelIdeal.Skeleton
import proofs.«155231_j82678120448731_2_alg».proof.Proof.Spec
import proofs.«155231_j82678120448731_2_alg».proof.Proof.Halves
import proofs.«155231_j82678120448731_2_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.KernelIdeal.PayRow

open Idealize.ShloMosaic Idealize.ShloMosaic.ValueIdx Cert.KernelIdeal Cert.KernelIdeal.Gen Cert.Mixer Cert.LibPlainMatmul

/-- One dense layer as the kernel spells it — the product into a zero accumulator plus the bias row broadcast
    over the rows, both operands behind identity shape casts — read at the entry `(p, q)`. -/
theorem layer_apply {M K N : ℕ} {φ₁ φ₂ : FTy} (D : DotDims ⟨2, ![M, K]⟩ ⟨2, ![K, N]⟩ ⟨2, ![M, N]⟩)
    (hD : D = DotDims.plain M K N) (prec : Option ContractPrecision) (x : FVec Ideal ⟨2, ![M, K]⟩ φ₁)
    (w : FVec Ideal ⟨2, ![K, N]⟩ φ₂) (b : FVec Ideal ⟨2, ![1, N]⟩ .f32)
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) (p : Fin M) (q : Fin N) :
    addf (matmul D prec x (shapeCast ⟨2, ![K, N]⟩ w hw) (constant ⟨2, ![M, N]⟩ .f32 0x00000000#32))
        (broadcastTo ⟨2, ![M, N]⟩ (shapeCast ⟨2, ![1, N]⟩ b hb) hbc) (ix2 p q)
      = rowDense (fun k => x (ix2 p k)) (fun k q => w (ix2 k q)) (fun q => b (ix2 (0 : Fin 1) q)) q := by
  show FloatOps.matmul D prec x (shapeCast ⟨2, ![K, N]⟩ w hw) (constant ⟨2, ![M, N]⟩ .f32 0x00000000#32) (ix2 p q)
      + broadcastTo ⟨2, ![M, N]⟩ (shapeCast ⟨2, ![1, N]⟩ b hb) hbc (ix2 p q) = _
  rw [matmul_plain_zero_apply D hD, broadcastTo_1b_ab_apply, shapeCast_self, shapeCast_self]
  rfl

/-- The first layer of both hypernetworks, side by side and rectified, at row `p` and column `j` of 256. -/
theorem pay3_apply (P0 : Vec Ideal S2048x512 .f32) (P4 : Vec Ideal S512x256 .bf16) (P5 : Vec Ideal S1x256 .f32)
    (p : Fin 2048) (j : Fin 256) :
    k0_pay3 P0 P4 P5 (ix2 p j)
      = max (rowDense (fun k => P0 (ix2 p k)) (fun k j => P4 (ix2 k j)) (fun j => P5 (ix2 (0 : Fin 1) j)) j) 0 := by
  unfold k0_pay3 k0_pay2
  rw [maximumf_apply, layer_apply dot_S2048x512_S512x256_S2048x256_1_0_0_1_n_n rfl, broadcast_apply]
  show max _ (Ideal.ofBits .f32 0x00000000#32) = _
  rw [Ideal.ofBits_zero_f32]
  rfl

/-- The right half of the rectified first layer. -/
theorem pay4_apply (P0 : Vec Ideal S2048x512 .f32) (P4 : Vec Ideal S512x256 .bf16) (P5 : Vec Ideal S1x256 .f32)
    (p : Fin 2048) (j : Fin 128) : k0_pay4 P0 P4 P5 (ix2 p j) = k0_pay3 P0 P4 P5 (ix2 p (hi128 j)) := by
  unfold k0_pay4
  exact slice2_axis1_apply 128 _ _ p j (hi128 j) rfl

/-- The first hypernetwork's second layer on the left half of the first, in absolute value. -/
theorem pay5_apply (P0 : Vec Ideal S2048x512 .f32) (P4 : Vec Ideal S512x256 .bf16) (P5 : Vec Ideal S1x256 .f32)
    (P6 : Vec Ideal S128x512 .bf16) (P7 : Vec Ideal S1x512 .f32) (p : Fin 2048) (n : Fin 512) :
    k0_pay5 P0 P4 P5 P6 P7 (ix2 p n)
      = absE (rowDense (fun j => k0_pay3 P0 P4 P5 (ix2 p (lo128 j))) (fun j n => P6 (ix2 j n))
          (fun n => P7 (ix2 (0 : Fin 1) n)) n) := by
  unfold k0_pay5
  show absE (addf (F := Ideal) _ _ (ix2 p n)) = _
  rw [layer_apply dot_S2048x128_S128x512_S2048x512_1_0_0_1_n_n rfl]
  refine congrArg absE (congrArg (· + _) (Finset.sum_congr rfl fun k _ => ?_))
  show extractStridedSlice S2048x128 ![0, 0] (k0_pay3 P0 P4 P5) slices_S2048x256_o0_0_S2048x128 (ix2 p k) * _ = _
  rw [slice2_axis1_apply 0 _ _ p k (lo128 k) (Nat.zero_add _).symm]

/-- The state's bias layers, side by side, at row `p` and column `m` of 128. -/
theorem pay6_apply (P0 : Vec Ideal S2048x512 .f32) (P1 : Vec Ideal S512x128 .bf16) (P2 : Vec Ideal S1x128 .f32)
    (p : Fin 2048) (m : Fin 128) :
    k0_pay6 P0 P1 P2 (ix2 p m)
      = rowDense (fun k => P0 (ix2 p k)) (fun k m => P1 (ix2 k m)) (fun m => P2 (ix2 (0 : Fin 1) m)) m := by
  unfold k0_pay6 k0_pay2
  rw [layer_apply dot_S2048x512_S512x128_S2048x128_1_0_0_1_n_n rfl]
  rfl

/-- Its left half. -/
theorem pay7_apply (P0 : Vec Ideal S2048x512 .f32) (P1 : Vec Ideal S512x128 .bf16) (P2 : Vec Ideal S1x128 .f32)
    (p : Fin 2048) (m : Fin 64) : k0_pay7 P0 P1 P2 (ix2 p m) = k0_pay6 P0 P1 P2 (ix2 p (lo64 m)) := by
  unfold k0_pay7
  exact slice2_axis1_apply 0 _ _ p m (lo64 m) (Nat.zero_add _).symm

/-- Its right half, rectified. -/
theorem pay8_apply (P0 : Vec Ideal S2048x512 .f32) (P1 : Vec Ideal S512x128 .bf16) (P2 : Vec Ideal S1x128 .f32)
    (p : Fin 2048) (m : Fin 64) : k0_pay8 P0 P1 P2 (ix2 p m) = max (k0_pay6 P0 P1 P2 (ix2 p (hi64 m))) 0 := by
  unfold k0_pay8
  rw [maximumf_apply, broadcast_apply, slice2_axis1_apply 64 _ _ p m (hi64 m) rfl]
  show max _ (Ideal.ofBits .f32 0x00000000#32) = _
  rw [Ideal.ofBits_zero_f32]

/-- A column broadcast over the lanes: a `[a, 1]` array broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One agent's term: the agent's value, a column of `q` broadcast over 64 lanes, times that agent's group of 64
    columns of the mixing weights. -/
theorem term_apply (Q : Vec Ideal S2048x8 .f32) (W : FVec Ideal S2048x512 .f32) (oq ow : ℕ)
    (hq : S2048x8.Slices ![0, oq] S2048x1) (hw : S2048x512.Slices ![0, ow] S2048x64)
    (hb : S2048x1.Broadcasts S2048x64) (a : Fin 8) (ha : a.val = oq) (hwa : ow = a.val * 64)
    (p : Fin 2048) (m : Fin 64) :
    mulf (F := Ideal) (broadcastTo S2048x64 (extractStridedSlice S2048x1 ![0, oq] Q hq) hb)
        (extractStridedSlice S2048x64 ![0, ow] W hw) (ix2 p m)
      = Q (ix2 p a) * W (ix2 p (lane a m)) := by
  rw [mulf_apply, broadcastTo_a1_ab_apply,
    slice2_axis1_apply oq Q hq p (0 : Fin 1) a (by rw [ha]; rfl),
    slice2_axis1_apply ow W hw p m (lane a m) (by rw [lane_val, hwa])]

/-- The first agent's term. -/
theorem pay9_apply (P0 : Vec Ideal S2048x512 .f32) (P3 : Vec Ideal S2048x8 .f32) (P4 : Vec Ideal S512x256 .bf16)
    (P5 : Vec Ideal S1x256 .f32) (P6 : Vec Ideal S128x512 .bf16) (P7 : Vec Ideal S1x512 .f32) (p : Fin 2048) (m : Fin 64) :
    k0_pay9 P0 P3 P4 P5 P6 P7 (ix2 p m) = P3 (ix2 p 0) * k0_pay5 P0 P4 P5 P6 P7 (ix2 p (lane 0 m)) := by
  unfold k0_pay9
  exact term_apply P3 _ 0 0 _ _ _ 0 rfl rfl p m

/-- The exponential linear unit as the kernel spells it — a select on "strictly positive" between the argument and
    \`exp (min x 0) - 1\` — read at an index. -/
theorem elu_vec_apply {s : Shape} (V : FVec Ideal s .f32) (i : s.Idx) :
    select (cmpf .ogt V (broadcast s (Scalar.ofBits (F := Ideal) .f32 0x00000000#32))) V
        (subf (exp (minimumf V (broadcast s (Scalar.ofBits (F := Ideal) .f32 0x00000000#32))))
          (broadcast s (Scalar.ofBits (F := Ideal) .f32 0x3F800000#32))) i
      = elu (V i) := by
  show Scalar.select (Ideal.cmp .ogt (V i) (Ideal.ofBits .f32 0x00000000#32)) (V i)
      (Ideal.exp (min (V i) (Ideal.ofBits .f32 0x00000000#32)) - Ideal.ofBits .f32 0x3F800000#32) = _
  rw [Ideal.ofBits_zero_f32, Ideal.ofBits_one_f32, select_ogt, elu_of_min]

/-- The hidden layer: the bias and the first agent's term, then the other seven agents' terms added one after another,
    through the exponential linear unit. -/
theorem pay10_apply (Q : Vec Ideal S2048x8 .f32) (W : FVec Ideal S2048x512 .f32) (B T : FVec Ideal S2048x64 .f32)
    (p : Fin 2048) (m : Fin 64) :
    k0_pay10 Q W B T (ix2 p m)
      = elu ((((((((B (ix2 p m) + T (ix2 p m)) + Q (ix2 p 1) * W (ix2 p (lane 1 m)))
          + Q (ix2 p 2) * W (ix2 p (lane 2 m))) + Q (ix2 p 3) * W (ix2 p (lane 3 m)))
          + Q (ix2 p 4) * W (ix2 p (lane 4 m))) + Q (ix2 p 5) * W (ix2 p (lane 5 m)))
          + Q (ix2 p 6) * W (ix2 p (lane 6 m))) + Q (ix2 p 7) * W (ix2 p (lane 7 m))) := by
  unfold k0_pay10
  refine (elu_vec_apply _ (ix2 p m)).trans (congrArg elu ?_)
  rw [addf_apply, addf_apply, addf_apply, addf_apply, addf_apply, addf_apply, addf_apply, addf_apply,
    term_apply Q W 1 64 _ _ _ 1 rfl rfl, term_apply Q W 2 128 _ _ _ 2 rfl rfl, term_apply Q W 3 192 _ _ _ 3 rfl rfl,
    term_apply Q W 4 256 _ _ _ 4 rfl rfl, term_apply Q W 5 320 _ _ _ 5 rfl rfl, term_apply Q W 6 384 _ _ _ 6 rfl rfl,
    term_apply Q W 7 448 _ _ _ 7 rfl rfl]

/-- The second hypernetwork's second layer on rows `V`. -/
theorem pay11_apply (V : FVec Ideal S2048x128 .f32) (P8 : Vec Ideal S128x64 .bf16) (P9 : Vec Ideal S1x64 .f32)
    (p : Fin 2048) (m : Fin 64) :
    k0_pay11 V P8 P9 (ix2 p m)
      = rowDense (fun j => V (ix2 p j)) (fun j m => P8 (ix2 j m)) (fun m => P9 (ix2 (0 : Fin 1) m)) m := by
  unfold k0_pay11
  rw [layer_apply dot_S2048x128_S128x64_S2048x64_1_0_0_1_n_n rfl]
  rfl

/-- The sum over the 64 lanes of each row, as a column, at row `p`. -/
theorem rowsum_apply (V : FVec Ideal S2048x64 .f32) (hφ : FKind.Formats FTy.f32)
    (hacc : (0x00000000#32 : BitVec FTy.f32.bits) = FKind.add.neutral .f32 hφ) (p : Fin 2048) :
    shapeCast S2048x1 (multiReduction .add [1] S2048 V 0x00000000#32 reduces_S2048x64_S2048 hφ hacc)
        shapeCasts_S2048_S2048x1 (ix2 p (0 : Fin 1))
      = ∑ m : Fin 64, V (ix2 p m) := by
  refine (shapeCast_apply _ _ (ix2 p (0 : Fin 1)) (ix1 p) ?_).trans ?_
  · rw [Shape.rowMajor_val_two, Shape.rowMajor_val_one]
    show p.val = p.val * 1 + 0
    omega
  · refine (Ideal.multiReduction_add_single V _ reduces_S2048x64_S2048 hφ hacc (ix1 p)).trans ?_
    show ∑ k : Fin 64, V (reduces_S2048x64_S2048.lift (ix1 p) k) = _
    refine Finset.sum_congr rfl fun k _ => congrArg V ?_
    funext c
    refine Fin.ext ?_
    match c with
    | ⟨0, _⟩ => rfl
    | ⟨1, _⟩ => rfl

/-- The store's value at row `p`: the hidden layer against the second hypernetwork's absolute weights, summed over the
    lanes, plus the rectified bias layer against the last weights, summed over the lanes, plus the last bias. -/
theorem pay1_apply (H R W2 : FVec Ideal S2048x64 .f32) (P10 : Vec Ideal S1x64 .f32) (P11 : Vec Ideal S1x1 .f32)
    (p : Fin 2048) :
    k0_pay1 H R W2 P10 P11 (ix2 p (0 : Fin 1))
      = (∑ m : Fin 64, R (ix2 p m) * absE (W2 (ix2 p m)))
        + ((∑ m : Fin 64, H (ix2 p m) * P10 (ix2 (0 : Fin 1) m)) + P11 (ix2 (0 : Fin 1) (0 : Fin 1))) := by
  unfold k0_pay1
  rw [addf_apply, addf_apply]
  refine congrArg₂ (· + ·) ((rowsum_apply _ _ _ p).trans (Finset.sum_congr rfl fun m _ => ?_))
    (congrArg₂ (· + ·) ((rowsum_apply _ _ _ p).trans (Finset.sum_congr rfl fun m _ => ?_)) ?_)
  · rfl
  · rw [mulf_apply, broadcastTo_1b_ab_apply, shapeCast_self]
  · rw [broadcastTo_1b_ab_apply, shapeCast_self]

/-- The mixing weights `w1` at row `p`, in the specification's words. -/
theorem w1_apply (P0 : Vec Ideal S2048x512 .f32) (P4 : Vec Ideal S512x256 .bf16) (P5 : Vec Ideal S1x256 .f32)
    (P6 : Vec Ideal S128x512 .bf16) (P7 : Vec Ideal S1x512 .f32) (p : Fin 2048) (n : Fin 512) :
    k0_pay5 P0 P4 P5 P6 P7 (ix2 p n)
      = absE (rowDense (fun j => max (rowDense (fun k => P0 (ix2 p k)) (fun k j => P4 (ix2 k (lo128 j)))
            (fun j => P5 (ix2 (0 : Fin 1) (lo128 j))) j) 0) (fun j n => P6 (ix2 j n))
          (fun n => P7 (ix2 (0 : Fin 1) n)) n) := by
  rw [pay5_apply]
  simp only [pay3_apply]
  rfl

/-- The hidden layer's bias `b1` at row `p`, in the specification's words. -/
theorem b1_apply (P0 : Vec Ideal S2048x512 .f32) (P1 : Vec Ideal S512x128 .bf16) (P2 : Vec Ideal S1x128 .f32)
    (p : Fin 2048) (m : Fin 64) :
    k0_pay7 P0 P1 P2 (ix2 p m)
      = rowDense (fun k => P0 (ix2 p k)) (fun k m => P1 (ix2 k (lo64 m))) (fun m => P2 (ix2 (0 : Fin 1) (lo64 m))) m := by
  rw [pay7_apply, pay6_apply]
  rfl

/-- The kernel body's stored value at row `p` is the network's output for that row. -/
theorem pay_row (P0 : Vec Ideal S2048x512 .f32) (P1 : Vec Ideal S512x128 .bf16) (P2 : Vec Ideal S1x128 .f32)
    (P3 : Vec Ideal S2048x8 .f32) (P4 : Vec Ideal S512x256 .bf16) (P5 : Vec Ideal S1x256 .f32)
    (P6 : Vec Ideal S128x512 .bf16) (P7 : Vec Ideal S1x512 .f32) (P8 : Vec Ideal S128x64 .bf16)
    (P9 : Vec Ideal S1x64 .f32) (P10 : Vec Ideal S1x64 .f32) (P11 : Vec Ideal S1x1 .f32) (p : Fin 2048) :
    k0_pay1 (k0_pay8 P0 P1 P2) (k0_pay10 P3 (k0_pay5 P0 P4 P5 P6 P7) (k0_pay7 P0 P1 P2) (k0_pay9 P0 P3 P4 P5 P6 P7))
        (k0_pay11 (k0_pay4 P0 P4 P5) P8 P9) P10 P11 (ix2 p (0 : Fin 1))
      = rowOut (fun k => P0 (ix2 p k)) (fun a => P3 (ix2 p a))
          (fun k j => P4 (ix2 k (lo128 j))) (fun j => P5 (ix2 (0 : Fin 1) (lo128 j)))
          (fun j n => P6 (ix2 j n)) (fun n => P7 (ix2 (0 : Fin 1) n))
          (fun k m => P1 (ix2 k (lo64 m))) (fun m => P2 (ix2 (0 : Fin 1) (lo64 m)))
          (fun k j => P4 (ix2 k (hi128 j))) (fun j => P5 (ix2 (0 : Fin 1) (hi128 j)))
          (fun j m => P8 (ix2 j m)) (fun m => P9 (ix2 (0 : Fin 1) m))
          (fun k m => P1 (ix2 k (hi64 m))) (fun m => P2 (ix2 (0 : Fin 1) (hi64 m)))
          (fun m => P10 (ix2 (0 : Fin 1) m)) (P11 (ix2 (0 : Fin 1) (0 : Fin 1))) := by
  rw [pay1_apply]
  unfold rowOut
  refine congrArg₂ (· + ·) (Finset.sum_congr rfl fun m _ => ?_)
    (congrArg (· + _) (Finset.sum_congr rfl fun m _ => ?_))
  · refine congrArg₂ (· * ·) ?_ (congrArg absE ?_)
    · rw [pay10_apply, pay9_apply, b1_apply]
      simp only [w1_apply]
      refine congrArg elu ?_
      rw [Fin.sum_univ_eight]
      ac_rfl
    · rw [pay11_apply]
      simp only [pay4_apply, pay3_apply]
      rfl
  · rw [pay8_apply, pay6_apply]
    rfl

end Cert.KernelIdeal.PayRow

end
-- ==== Proof.KernelRows.lean ====
/-
  The kernel's output array after the run: row `P` holds the network's output for row `P` of the state and of the agents'
  values.

  The grid has 64 points; point `t` stages rows `2048 t … 2048 t + 2047` of the state and of the agents' values, and
  every weight array whole, and writes back rows `2048 t … 2048 t + 2047` of the output. What it writes at row `p` of
  its block is the body's value there, which is the network's output for row `p` of the staged blocks — that is, for row
  `2048 t + p` of the arrays. The 64 blocks of 2048 rows cover the 131072 rows, so the whole output array is the network's
  output row by row.
-/
import proofs.«155231_j82678120448731_2_alg».proof.Proof.KernelArraysAt
import proofs.«155231_j82678120448731_2_alg».proof.Proof.Spec
import proofs.«155231_j82678120448731_2_alg».proof.Proof.PayRow

noncomputable section

namespace Cert.KernelIdeal.RowValue

open Cert.KernelIdeal Cert.KernelIdeal.Gen Idealize.ShloMosaic Idealize.ShloMosaic.TcCoe Idealize.SL.Sem
open Idealize.ShloMosaic.ValueIdx Cert.Mixer
open Idealize.ShloMosaic.Pipeline (Dat)
open Cert.KernelIdeal.PayRow

variable (m : (ℓ : Loc nD τ sig) → Buf (Elt Ideal) ℓ) (ρ : Dev nD → PrngReg)

/-- The network's output for row `P` of the argument arrays. -/
def rowAt (c : Dev nD) (P : Fin 131072) : EReal :=
  rowOut (fun k => m ((c : Thread nD τ).loc main_arg1) (ix2 P k)) (fun a => m ((c : Thread nD τ).loc main_arg0) (ix2 P a))
    (fun k j => m ((c : Thread nD τ).loc main_arg2) (ix2 k j)) (fun j => m ((c : Thread nD τ).loc main_arg3) (ix1 j))
    (fun j n => m ((c : Thread nD τ).loc main_arg4) (ix2 j n)) (fun n => m ((c : Thread nD τ).loc main_arg5) (ix1 n))
    (fun k q => m ((c : Thread nD τ).loc main_arg6) (ix2 k q)) (fun q => m ((c : Thread nD τ).loc main_arg7) (ix1 q))
    (fun k j => m ((c : Thread nD τ).loc main_arg8) (ix2 k j)) (fun j => m ((c : Thread nD τ).loc main_arg9) (ix1 j))
    (fun j q => m ((c : Thread nD τ).loc main_arg10) (ix2 j q)) (fun q => m ((c : Thread nD τ).loc main_arg11) (ix1 q))
    (fun k q => m ((c : Thread nD τ).loc main_arg12) (ix2 k q)) (fun q => m ((c : Thread nD τ).loc main_arg13) (ix1 q))
    (fun q => m ((c : Thread nD τ).loc main_arg14) (ix2 q (0 : Fin 1))) (m ((c : Thread nD τ).loc main_arg15) (ix1 (0 : Fin 1)))

/-- The output array: row `P` holds `rowAt P`. -/
def kernelOut (c : Dev nD) : S131072x1.Idx → EReal := fun i => rowAt m c (i 0)

theorem hz : (![0, 0] : Fin 2 → Nat) = fun _ => 0 := funext fun a => by fin_cases a <;> rfl

/-! ## The index maps, decided over the 64 grid points -/

/-- The two row-blocked inputs move with the output's block of rows; the output's block index is the point. -/
theorem idx_rows : ∀ t : Fin cfg0.N, win0_0.index t (0 : Fin 2) = win0_12.index t (0 : Fin 2)
    ∧ win0_0.index t (1 : Fin 2) = 0
    ∧ win0_1.index t (0 : Fin 2) = win0_12.index t (0 : Fin 2)
    ∧ win0_1.index t (1 : Fin 2) = 0
    ∧ win0_12.index t (1 : Fin 2) = 0
    ∧ win0_12.index t (0 : Fin 2) ≤ 63 :=
  (by decide +kernel : ∀ t : Fin grid0.N, _)

/-- Every block of 2048 rows is some point's. -/
theorem idx_onto : ∀ q0 : Fin 64, ∃ t : Fin cfg0.N, win0_12.index t = ![q0.val, 0] :=
  (by decide +kernel : ∀ q0 : Fin 64, ∃ t : Fin grid0.N, win0_12.index t = ![q0.val, 0])

theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)

/-! ## Each input window's block at a point, read at an index -/

variable (c : Dev nD)

/-- Row `p` of the agents' values' block at point `t` is row `2048 t + p` of the array. -/
theorem blk0_at (t : Fin cfg0.N) (p : Fin 2048) (a : Fin 8) (P : Fin 131072)
    (hP : P.val = win0_12.index t (0 : Fin 2) * 2048 + p.val) :
    iblk m c 0 t (ix2 p a) = m ((c : Thread nD τ).loc main_arg0) (ix2 P a) := by
  obtain ⟨e0, e1, e2, e3, e4, e5⟩ := idx_rows t
  show V m c main_arg0 (((cfg0.win 0).blk t).view.emb (ix2 p a)) = _
  rw [V_main_arg0]
  have h : ((cfg0.win 0).blk t).view.emb (ix2 p a) = ix2 P a := by
    funext ax; apply Fin.ext
    match ax with
    | ⟨0, _⟩ => show win0_0.index t (0 : Fin 2) * 2048 + 1 * p.val = P.val; omega
    | ⟨1, _⟩ => show win0_0.index t (1 : Fin 2) * 8 + 1 * a.val = a.val; omega
  rw [h]

/-- Row `p` of the state's block at point `t` is row `2048 t + p` of the array. -/
theorem blk1_at (t : Fin cfg0.N) (p : Fin 2048) (k : Fin 512) (P : Fin 131072)
    (hP : P.val = win0_12.index t (0 : Fin 2) * 2048 + p.val) :
    iblk m c 1 t (ix2 p k) = m ((c : Thread nD τ).loc main_arg1) (ix2 P k) := by
  obtain ⟨e0, e1, e2, e3, e4, e5⟩ := idx_rows t
  show V m c main_arg1 (((cfg0.win 1).blk t).view.emb (ix2 p k)) = _
  rw [V_main_arg1]
  have h : ((cfg0.win 1).blk t).view.emb (ix2 p k) = ix2 P k := by
    funext ax; apply Fin.ext
    match ax with
    | ⟨0, _⟩ => show win0_1.index t (0 : Fin 2) * 2048 + 1 * p.val = P.val; omega
    | ⟨1, _⟩ => show win0_1.index t (1 : Fin 2) * 512 + 1 * k.val = k.val; omega
  rw [h]

theorem blk2_at (t : Fin cfg0.N) (x : Fin 512) (y : Fin 256) : iblk m c 2 t (ix2 x y) = V m c main_v6 (ix2 x y) := by
  obtain ⟨h0, h1⟩ := idx2 t
  show V m c main_v6 (((cfg0.win 2).blk t).view.emb (ix2 x y)) = V m c main_v6 (ix2 x y)
  have h : ((cfg0.win 2).blk t).view.emb (ix2 x y) = ix2 x y := by
    funext a; apply Fin.ext
    match a with
    | ⟨0, _⟩ => show win0_2.index t (0 : Fin 2) * 512 + 1 * x.val = x.val; omega
    | ⟨1, _⟩ => show win0_2.index t (1 : Fin 2) * 256 + 1 * y.val = y.val; omega
  rw [h]

theorem blk3_at (t : Fin cfg0.N) (x : Fin 1) (y : Fin 256) : iblk m c 3 t (ix2 x y) = V m c main_v2 (ix2 x y) := by
  obtain ⟨h0, h1⟩ := idx3 t
  show V m c main_v2 (((cfg0.win 3).blk t).view.emb (ix2 x y)) = V m c main_v2 (ix2 x y)
  have h : ((cfg0.win 3).blk t).view.emb (ix2 x y) = ix2 x y := by
    funext a; apply Fin.ext
    match a with
    | ⟨0, _⟩ => show win0_3.index t (0 : Fin 2) * 1 + 1 * x.val = x.val; omega
    | ⟨1, _⟩ => show win0_3.index t (1 : Fin 2) * 256 + 1 * y.val = y.val; omega
  rw [h]

theorem blk4_at (t : Fin cfg0.N) (x : Fin 128) (y : Fin 512) : iblk m c 4 t (ix2 x y) = V m c main_v8 (ix2 x y) := by
  obtain ⟨h0, h1⟩ := idx4 t
  show V m c main_v8 (((cfg0.win 4).blk t).view.emb (ix2 x y)) = V m c main_v8 (ix2 x y)
  have h : ((cfg0.win 4).blk t).view.emb (ix2 x y) = ix2 x y := by
    funext a; apply Fin.ext
    match a with
    | ⟨0, _⟩ => show win0_4.index t (0 : Fin 2) * 128 + 1 * x.val = x.val; omega
    | ⟨1, _⟩ => show win0_4.index t (1 : Fin 2) * 512 + 1 * y.val = y.val; omega
  rw [h]

theorem blk5_at (t : Fin cfg0.N) (x : Fin 1) (y : Fin 512) : iblk m c 5 t (ix2 x y) = V m c main_v10 (ix2 x y) := by
  obtain ⟨h0, h1⟩ := idx5 t
  show V m c main_v10 (((cfg0.win 5).blk t).view.emb (ix2 x y)) = V m c main_v10 (ix2 x y)
  have h : ((cfg0.win 5).blk t).view.emb (ix2 x y) = ix2 x y := by
    funext a; apply Fin.ext
    match a with
    | ⟨0, _⟩ => show win0_5.index t (0 : Fin 2) * 1 + 1 * x.val = x.val; omega
    | ⟨1, _⟩ => show win0_5.index t (1 : Fin 2) * 512 + 1 * y.val = y.val; omega
  rw [h]

theorem blk6_at (t : Fin cfg0.N) (x : Fin 512) (y : Fin 128) : iblk m c 6 t (ix2 x y) = V m c main_v7 (ix2 x y) := by
  obtain ⟨h0, h1⟩ := idx6 t
  show V m c main_v7 (((cfg0.win 6).blk t).view.emb (ix2 x y)) = V m c main_v7 (ix2 x y)
  have h : ((cfg0.win 6).blk t).view.emb (ix2 x y) = ix2 x y := by
    funext a; apply Fin.ext
    match a with
    | ⟨0, _⟩ => show win0_6.index t (0 : Fin 2) * 512 + 1 * x.val = x.val; omega
    | ⟨1, _⟩ => show win0_6.index t (1 : Fin 2) * 128 + 1 * y.val = y.val; omega
  rw [h]

theorem blk7_at (t : Fin cfg0.N) (x : Fin 1) (y : Fin 128) : iblk m c 7 t (ix2 x y) = V m c main_v5 (ix2 x y) := by
  obtain ⟨h0, h1⟩ := idx7 t
  show V m c main_v5 (((cfg0.win 7).blk t).view.emb (ix2 x y)) = V m c main_v5 (ix2 x y)
  have h : ((cfg0.win 7).blk t).view.emb (ix2 x y) = ix2 x y := by
    funext a; apply Fin.ext
    match a with
    | ⟨0, _⟩ => show win0_7.index t (0 : Fin 2) * 1 + 1 * x.val = x.val; omega
    | ⟨1, _⟩ => show win0_7.index t (1 : Fin 2) * 128 + 1 * y.val = y.val; omega
  rw [h]

theorem blk8_at (t : Fin cfg0.N) (x : Fin 128) (y : Fin 64) : iblk m c 8 t (ix2 x y) = V m c main_v9 (ix2 x y) := by
  obtain ⟨h0, h1⟩ := idx8 t
  show V m c main_v9 (((cfg0.win 8).blk t).view.emb (ix2 x y)) = V m c main_v9 (ix2 x y)
  have h : ((cfg0.win 8).blk t).view.emb (ix2 x y) = ix2 x y := by
    funext a; apply Fin.ext
    match a with
    | ⟨0, _⟩ => show win0_8.index t (0 : Fin 2) * 128 + 1 * x.val = x.val; omega
    | ⟨1, _⟩ => show win0_8.index t (1 : Fin 2) * 64 + 1 * y.val = y.val; omega
  rw [h]

theorem blk9_at (t : Fin cfg0.N) (x : Fin 1) (y : Fin 64) : iblk m c 9 t (ix2 x y) = V m c main_v11 (ix2 x y) := by
  obtain ⟨h0, h1⟩ := idx9 t
  show V m c main_v11 (((cfg0.win 9).blk t).view.emb (ix2 x y)) = V m c main_v11 (ix2 x y)
  have h : ((cfg0.win 9).blk t).view.emb (ix2 x y) = ix2 x y := by
    funext a; apply Fin.ext
    match a with
    | ⟨0, _⟩ => show win0_9.index t (0 : Fin 2) * 1 + 1 * x.val = x.val; omega
    | ⟨1, _⟩ => show win0_9.index t (1 : Fin 2) * 64 + 1 * y.val = y.val; omega
  rw [h]

theorem blk10_at (t : Fin cfg0.N) (x : Fin 1) (y : Fin 64) : iblk m c 10 t (ix2 x y) = V m c main_v13 (ix2 x y) := by
  obtain ⟨h0, h1⟩ := idx10 t
  show V m c main_v13 (((cfg0.win 10).blk t).view.emb (ix2 x y)) = V m c main_v13 (ix2 x y)
  have h : ((cfg0.win 10).blk t).view.emb (ix2 x y) = ix2 x y := by
    funext a; apply Fin.ext
    match a with
    | ⟨0, _⟩ => show win0_10.index t (0 : Fin 2) * 1 + 1 * x.val = x.val; omega
    | ⟨1, _⟩ => show win0_10.index t (1 : Fin 2) * 64 + 1 * y.val = y.val; omega
  rw [h]

theorem blk11_at (t : Fin cfg0.N) (x : Fin 1) (y : Fin 1) : iblk m c 11 t (ix2 x y) = V m c main_v12 (ix2 x y) := by
  obtain ⟨h0, h1⟩ := idx11 t
  show V m c main_v12 (((cfg0.win 11).blk t).view.emb (ix2 x y)) = V m c main_v12 (ix2 x y)
  have h : ((cfg0.win 11).blk t).view.emb (ix2 x y) = ix2 x y := by
    funext a; apply Fin.ext
    match a with
    | ⟨0, _⟩ => show win0_11.index t (0 : Fin 2) * 1 + 1 * x.val = x.val; omega
    | ⟨1, _⟩ => show win0_11.index t (1 : Fin 2) * 1 + 1 * y.val = y.val; omega
  rw [h]

/-! ## What a point writes back -/

/-- Point `t` writes back block `t` of `kernelOut`. -/
theorem flushed_eq (t : Fin cfg0.N) :
    (dats m 0 c).flushed 12 t = ((cfg0.win 12).blk t).view.read (Elt Ideal) (kernelOut m c) := by
  rw [Cert.KernelIdeal.ValueP.flushed12]
  unfold out0_12
  rw [View.canon_unit_zero hz]
  simp only [View.ld_unit_zero (S := S2048x8) hz, View.ld_unit_zero (S := S2048x512) hz, View.ld_unit_zero (S := S512x256) hz, View.ld_unit_zero (S := S1x256) hz, View.ld_unit_zero (S := S128x512) hz, View.ld_unit_zero (S := S1x512) hz, View.ld_unit_zero (S := S512x128) hz, View.ld_unit_zero (S := S1x128) hz, View.ld_unit_zero (S := S128x64) hz, View.ld_unit_zero (S := S1x64) hz, View.ld_unit_zero (S := S1x1) hz]
  funext y
  obtain ⟨p, u, rfl⟩ : ∃ (p : Fin 2048) (u : Fin 1), y = ix2 p u := ⟨y 0, y 1, eq_ix2 y⟩
  obtain rfl : u = 0 := Subsingleton.elim _ _
  obtain ⟨e0, e1, e2, e3, e4, e5⟩ := idx_rows t
  have hp := p.isLt
  have hemb : ((cfg0.win 12).blk t).view.emb (ix2 p (0 : Fin 1))
      = ix2 (⟨win0_12.index t (0 : Fin 2) * 2048 + p.val, by omega⟩ : Fin 131072) (0 : Fin 1) := by
    funext ax; apply Fin.ext
    match ax with
    | ⟨0, _⟩ => show win0_12.index t (0 : Fin 2) * 2048 + 1 * p.val = win0_12.index t (0 : Fin 2) * 2048 + p.val; omega
    | ⟨1, _⟩ => show win0_12.index t (1 : Fin 2) * 1 + 1 * 0 = 0; omega
  refine (pay_row (iblk m c 1 t) (iblk m c 6 t) (iblk m c 7 t) (iblk m c 0 t) (iblk m c 2 t) (iblk m c 3 t) (iblk m c 4 t)
    (iblk m c 5 t) (iblk m c 8 t) (iblk m c 9 t) (iblk m c 10 t) (iblk m c 11 t) p).trans ?_
  show _ = kernelOut m c (((cfg0.win 12).blk t).view.emb (ix2 p (0 : Fin 1)))
  rw [hemb]
  show _ = rowAt m c (⟨win0_12.index t (0 : Fin 2) * 2048 + p.val, by omega⟩ : Fin 131072)
  unfold rowAt
  have r0 : ∀ a, iblk m c 0 t (ix2 p a) = _ := fun a => blk0_at m c t p a ⟨win0_12.index t (0 : Fin 2) * 2048 + p.val, by omega⟩ rfl
  have r1 : ∀ k, iblk m c 1 t (ix2 p k) = _ := fun k => blk1_at m c t p k ⟨win0_12.index t (0 : Fin 2) * 2048 + p.val, by omega⟩ rfl
  simp only [r0, r1, blk2_at, blk3_at, blk4_at, blk5_at, blk6_at, blk7_at, blk8_at, blk9_at, blk10_at, blk11_at,
    Wa_lo m c, Wa_hi m c, ba_lo m c, ba_hi m c, W1b_at m c, b1b_at m c, Wb_lo m c, Wb_hi m c, bb_lo m c, bb_hi m c,
    W2b_at m c, b2b_at m c, wb2b_at m c, bb2b_at m c]

/-! ## The blocks cover the array -/

theorem mem_blk (t : Fin cfg0.N) (i : S131072x1.Idx) :
    i ∈ ((cfg0.win 12).blk t).view.set ↔ ∀ a : Fin 2, win0_12.index t a * S2048x1.size a ≤ (i a).val ∧ (i a).val < win0_12.index t a * S2048x1.size a + S2048x1.size a := by
  show i ∈ ((View.whole main_v14).slice (win0_12.rect t)).set ↔ _
  rw [View.set_slice_whole, Rect.mem_set_unit]
  exact Iff.rfl

/-- Row `r` lies in the block of point `r / 2048`. -/
theorem cover (i : S131072x1.Idx) : ∃ t : Fin cfg0.N, (cfg0.win 12).flush t = true ∧ i ∈ ((cfg0.win 12).blk t).view.set := by
  have hi0 : (i 0).val < 131072 := (i 0).isLt
  have hi1 : (i 1).val < 1 := (i 1).isLt
  obtain ⟨t, ht⟩ := idx_onto ⟨(i 0).val / 2048, by omega⟩
  have q0 : win0_12.index t (0 : Fin 2) = (i 0).val / 2048 := congrFun ht 0
  have q1 : win0_12.index t (1 : Fin 2) = 0 := congrFun ht 1
  refine ⟨t, flush0_12 t, ?_⟩
  rw [mem_blk]
  intro a
  match a with
  | ⟨0, _⟩ => show win0_12.index t (0 : Fin 2) * 2048 ≤ (i 0).val ∧ (i 0).val < win0_12.index t (0 : Fin 2) * 2048 + 2048; omega
  | ⟨1, _⟩ => show win0_12.index t (1 : Fin 2) * 1 ≤ (i 1).val ∧ (i 1).val < win0_12.index t (1 : Fin 2) * 1 + 1; omega

/-- The output array after the run is `kernelOut`. -/
theorem final : (dats m 0 c).arrAt 12 cfg0.N = kernelOut m c :=
  (dats m 0 c).arrAt_eq_of_cover 12 (kernelOut m c) (fun t _ => flushed_eq m c t) cover

/-! ## The run -/

/-- Every weakly fair execution of the kernel's program terminates with the output array at `kernelOut` and the
    arguments unchanged. -/
theorem run : θ_run defs (onTc (τ := τ) (main (F := Ideal))) ⟨m, fun _ => 0, ρ⟩ fun r => ∀ c : Dev nD,
      r.2.mem ((c : Thread nD τ).loc main_v14) = kernelOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩)
    (Cert.KernelIdeal.ValueP.run_blocks m ρ)

end Cert.KernelIdeal.RowValue

end
-- ==== Proof.RefTerm.lean ====
/-
  The reference program's result as one term of its sixteen argument arrays.

  Each definition below is one stretch of the reference's operations, spelt exactly as the program spells them, so that
  the program's run ends with its result buffer at `refOut` of the arguments by unfolding alone:
  `hostLayer*` a general dot product plus a bias lifted to a row and broadcast over the rows; `hostRelu*` the maximum
  with a broadcast zero; `hostElu` jax's exponential linear unit (a select on `x > 0` between `x` and
  `1 · expm1 (select (x > 0) 0 x)`); `refOut` the whole network: the two hypernetwork branches, the batched products
  of the agents' values with the generated weights, and the final reshape to a column.
-/
import proofs.«155231_j82678120448731_2_alg».proof.Proof.Gen.ReferenceIdeal

noncomputable section

namespace Cert.ReferenceIdeal.RefValue

open Cert.ReferenceIdeal Cert.ReferenceIdeal.Gen Idealize.ShloMosaic

variable {F : FTy → Type} [FloatOps F]

/-- `s · W + b` into 128 columns. -/
def hostLayer128 (s : FVec F S131072x512 .f32) (W : FVec F S512x128 .f32) (b : FVec F S128 .f32) : FVec F S131072x128 .f32 :=
  addf (Host.dotGeneral dot_S131072x512_S512x128_S131072x128_1_0_0_1_n_n none s W)
    (broadcastInDim S131072x128 ![0, 1] bcast_S1x128_S131072x128_0_1 (broadcastInDim S1x128 ![1] bcast_S128_S1x128_1 b))

/-- `s · W + b` into 64 columns. -/
def hostLayer64 (s : FVec F S131072x512 .f32) (W : FVec F S512x64 .f32) (b : FVec F S64 .f32) : FVec F S131072x64 .f32 :=
  addf (Host.dotGeneral dot_S131072x512_S512x64_S131072x64_1_0_0_1_n_n none s W)
    (broadcastInDim S131072x64 ![0, 1] bcast_S1x64_S131072x64_0_1 (broadcastInDim S1x64 ![1] bcast_S64_S1x64_1 b))

/-- `h · W + b` from 128 into 512 columns. -/
def hostLayer128x512 (h : FVec F S131072x128 .f32) (W : FVec F S128x512 .f32) (b : FVec F S512 .f32) : FVec F S131072x512 .f32 :=
  addf (Host.dotGeneral dot_S131072x128_S128x512_S131072x512_1_0_0_1_n_n none h W)
    (broadcastInDim S131072x512 ![0, 1] bcast_S1x512_S131072x512_0_1 (broadcastInDim S1x512 ![1] bcast_S512_S1x512_1 b))

/-- `h · W + b` from 128 into 64 columns. -/
def hostLayer128x64 (h : FVec F S131072x128 .f32) (W : FVec F S128x64 .f32) (b : FVec F S64 .f32) : FVec F S131072x64 .f32 :=
  addf (Host.dotGeneral dot_S131072x128_S128x64_S131072x64_1_0_0_1_n_n none h W)
    (broadcastInDim S131072x64 ![0, 1] bcast_S1x64_S131072x64_0_1 (broadcastInDim S1x64 ![1] bcast_S64_S1x64_1 b))

/-- `h · W + b` from 64 into one column. -/
def hostLayer64x1 (h : FVec F S131072x64 .f32) (W : FVec F S64x1 .f32) (b : FVec F S1 .f32) : FVec F S131072x1 .f32 :=
  addf (Host.dotGeneral dot_S131072x64_S64x1_S131072x1_1_0_0_1_n_n none h W)
    (broadcastInDim S131072x1 ![0, 1] bcast_S1x1_S131072x1_0_1 (broadcastInDim S1x1 ![1] bcast_S1_S1x1_1 b))

/-- The rectifier over 128 columns. -/
def hostRelu128 (x : FVec F S131072x128 .f32) : FVec F S131072x128 .f32 :=
  maximumf x (broadcastInDim S131072x128 ![] bcast_S_S131072x128 (constant S_ .f32 0x00000000#32))

/-- The rectifier over 64 columns. -/
def hostRelu64 (x : FVec F S131072x64 .f32) : FVec F S131072x64 .f32 :=
  maximumf x (broadcastInDim S131072x64 ![] bcast_S_S131072x64 (constant S_ .f32 0x00000000#32))

/-- jax's exponential linear unit. -/
def hostElu (x : FVec F S131072x1x64 .f32) : FVec F S131072x1x64 .f32 :=
  select (cmpf .ogt x (broadcastInDim S131072x1x64 ![] bcast_S_S131072x1x64 (constant S_ .f32 0x00000000#32))) x
    (mulf (broadcastInDim S131072x1x64 ![] bcast_S_S131072x1x64 (constant S_ .f32 0x3F800000#32))
      (Host.expm1
        (select (cmpf .ogt x (broadcastInDim S131072x1x64 ![] bcast_S_S131072x1x64 (constant S_ .f32 0x00000000#32)))
          (broadcastInDim S131072x1x64 ![] bcast_S_S131072x1x64 (id (constant S_ .f32 0x00000000#32))) x)))

/-- The hidden layer before its activation: the agents' values against the generated first-layer weights, plus the
    generated bias. -/
def hiddenPre (qs : FVec F S131072x8 .f32) (w1 : FVec F S131072x512 .f32) (b1 : FVec F S131072x64 .f32) : FVec F S131072x1x64 .f32 :=
  addf
    (Host.dotGeneral dot_S131072x1x8_S131072x8x64_S131072x1x64_2_1_1_2_0_0 none
      (broadcastInDim S131072x1x8 ![0, 2] bcast_S131072x8_S131072x1x8_0_2 qs)
      (shapeCast S131072x8x64 w1 shapeCasts_S131072x512_S131072x8x64))
    (broadcastInDim S131072x1x64 ![0, 2] bcast_S131072x64_S131072x1x64_0_2 b1)

/-- The output layer: the hidden activations against the generated second-layer weights, plus the generated bias,
    as a column. -/
def mixOut (hid : FVec F S131072x1x64 .f32) (w2 : FVec F S131072x64 .f32) (b2 : FVec F S131072x1 .f32) : FVec F S131072x1 .f32 :=
  shapeCast S131072x1
    (addf
      (Host.dotGeneral dot_S131072x1x64_S131072x64x1_S131072x1x1_2_1_1_2_0_0 none hid
        (broadcastInDim S131072x64x1 ![0, 1] bcast_S131072x64_S131072x64x1_0_1 w2))
      (broadcastInDim S131072x1x1 ![0, 2] bcast_S131072x1_S131072x1x1_0_2 b2))
    shapeCasts_S131072x1x1_S131072x1

/-- The reference's result of its sixteen arguments. -/
def refOut (qs : FVec F S131072x8 .f32) (s : FVec F S131072x512 .f32)
    (W1a : FVec F S512x128 .f32) (b1a : FVec F S128 .f32) (W1b : FVec F S128x512 .f32) (b1b : FVec F S512 .f32)
    (Wb1 : FVec F S512x64 .f32) (bb1 : FVec F S64 .f32) (W2a : FVec F S512x128 .f32) (b2a : FVec F S128 .f32)
    (W2b : FVec F S128x64 .f32) (b2b : FVec F S64 .f32) (Wb2a : FVec F S512x64 .f32) (bb2a : FVec F S64 .f32)
    (Wb2b : FVec F S64x1 .f32) (bb2b : FVec F S1 .f32) : FVec F S131072x1 .f32 :=
  mixOut
    (hostElu (hiddenPre qs (Host.absf (hostLayer128x512 (hostRelu128 (hostLayer128 s W1a b1a)) W1b b1b)) (hostLayer64 s Wb1 bb1)))
    (Host.absf (hostLayer128x64 (hostRelu128 (hostLayer128 s W2a b2a)) W2b b2b))
    (hostLayer64x1 (hostRelu64 (hostLayer64 s Wb2a bb2a)) Wb2b bb2b)

end Cert.ReferenceIdeal.RefValue

end
-- ==== Proof.RefRun.lean ====
/-
  The reference program's run.

  The reference is a straight line of host operations with five calls of module-local functions: the rectifier
  three times, and once the exponential linear unit, which itself calls the two selects behind `where`. A call
  executes the callee's body on the operands, each value of the body in a buffer of that call's own record; so
  the program is one list of sixty-four operations, the callees' listed at their call sites over the calls'
  records. Every weakly fair execution of it terminates with each buffer at the fold of the operations'
  results over the launch contents: the result buffer at `refOut` of the sixteen argument arrays — the term
  that composes the operations' functions in the program's own order —, and each argument unchanged, no
  operation writing an argument's buffer.
-/
import proofs.«155231_j82678120448731_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's sixty-four operations in order, the calls unfolded: each rectifier is three (the scalar zero, its
    broadcast, the maximum); the exponential linear unit is fifteen (twice the zero, its broadcast and the
    comparison `x > 0`; a third zero, which the first select's callee converts to its own type, broadcasts and
    selects against `x`; `expm1` of that; the scalar one, its broadcast, the product; the second select). -/
abbrev ops : List (HloOp τ sig (Elt F)) :=
  [ binary main_arg1 main_arg2 main_v0 ((fun l r => Host.dotGeneral dot_S131072x512_S512x128_S131072x128_1_0_0_1_n_n none l r) : (⟨S131072x512, .f32⟩ : BufTy).Contents (Elt F) → (⟨S512x128, .f32⟩ : BufTy).Contents (Elt F) → (⟨S131072x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S131072x128 ![0, 1] bcast_S1x128_S131072x128_0_1 : (⟨S1x128, .f32⟩ : BufTy).Contents (Elt F) → (⟨S131072x128, .f32⟩ : BufTy).Contents (Elt F)),
    binary main_v0 main_v2 main_v3 (addf : (⟨S131072x128, .f32⟩ : BufTy).Contents (Elt F) → (⟨S131072x128, .f32⟩ : BufTy).Contents (Elt F) → (⟨S131072x128, .f32⟩ : BufTy).Contents (Elt F)),
    TRef.nullary main_call0.cst (constant S_ .f32 0x00000000#32),
    TRef.unary main_call0.cst main_call0.v0 (broadcastInDim S131072x128 ![] bcast_S_S131072x128),
    TRef.binary (.of main_v3) main_call0.v0 main_call0.v1 maximumf,
    binary main_v4 main_arg4 main_v5 ((fun l r => Host.dotGeneral dot_S131072x128_S128x512_S131072x512_1_0_0_1_n_n none l r) : (⟨S131072x128, .f32⟩ : BufTy).Contents (Elt F) → (⟨S128x512, .f32⟩ : BufTy).Contents (Elt F) → (⟨S131072x512, .f32⟩ : BufTy).Contents (Elt F)),
    unary main_arg5 main_v6 (broadcastInDim S1x512 ![1] bcast_S512_S1x512_1 : (⟨S512, .f32⟩ : BufTy).Contents (Elt F) → (⟨S1x512, .f32⟩ : BufTy).Contents (Elt F)),
    unary main_v6 main_v7 (broadcastInDim S131072x512 ![0, 1] bcast_S1x512_S131072x512_0_1 : (⟨S1x512, .f32⟩ : BufTy).Contents (Elt F) → (⟨S131072x512, .f32⟩ : BufTy).Contents (Elt F)),
    binary main_v5 main_v7 main_v8 (addf : (⟨S131072x512, .f32⟩ : BufTy).Contents (Elt F) → (⟨S131072x512, .f32⟩ : BufTy).Contents (Elt F) → (⟨S131072x512, .f32⟩ : BufTy).Contents (Elt F)),
    unary main_v8 main_v9 (Host.absf : (⟨S131072x512, .f32⟩ : BufTy).Contents (Elt F) → (⟨S131072x512, .f32⟩ : BufTy).Contents (Elt F)),
    reshape main_v9 main_v10 rfl shapeCasts_S131072x512_S131072x8x64,
    binary main_arg1 main_arg6 main_v11 ((fun l r => Host.dotGeneral dot_S131072x512_S512x64_S131072x64_1_0_0_1_n_n none l r) : (⟨S131072x512, .f32⟩ : BufTy).Contents (Elt F) → (⟨S512x64, .f32⟩ : BufTy).Contents (Elt F) → (⟨S131072x64, .f32⟩ : BufTy).Contents (Elt F)),
    unary main_arg7 main_v12 (broadcastInDim S1x64 ![1] bcast_S64_S1x64_1 : (⟨S64, .f32⟩ : BufTy).Contents (Elt F) → (⟨S1x64, .f32⟩ : BufTy).Contents (Elt F)),
    unary main_v12 main_v13 (broadcastInDim S131072x64 ![0, 1] bcast_S1x64_S131072x64_0_1 : (⟨S1x64, .f32⟩ : BufTy).Contents (Elt F) → (⟨S131072x64, .f32⟩ : BufTy).Contents (Elt F)),
    binary main_v11 main_v13 main_v14 (addf : (⟨S131072x64, .f32⟩ : BufTy).Contents (Elt F) → (⟨S131072x64, .f32⟩ : BufTy).Contents (Elt F) → (⟨S131072x64, .f32⟩ : BufTy).Contents (Elt F)),
    unary main_v14 main_v15 (broadcastInDim S131072x1x64 ![0, 2] bcast_S131072x64_S131072x1x64_0_2 : (⟨S131072x64, .f32⟩ : BufTy).Contents (Elt F) → (⟨S131072x1x64, .f32⟩ : BufTy).Contents (Elt F)),
    unary main_arg0 main_v16 (broadcastInDim S131072x1x8 ![0, 2] bcast_S131072x8_S131072x1x8_0_2 : (⟨S131072x8, .f32⟩ : BufTy).Contents (Elt F) → (⟨S131072x1x8, .f32⟩ : BufTy).Contents (Elt F)),
    binary main_v16 main_v10 main_v17 ((fun l r => Host.dotGeneral dot_S131072x1x8_S131072x8x64_S131072x1x64_2_1_1_2_0_0 none l r) : (⟨S131072x1x8, .f32⟩ : BufTy).Contents (Elt F) → (⟨S131072x8x64, .f32⟩ : BufTy).Contents (Elt F) → (⟨S131072x1x64, .f32⟩ : BufTy).Contents (Elt F)),
    binary main_v17 main_v15 main_v18 (addf : (⟨S131072x1x64, .f32⟩ : BufTy).Contents (Elt F) → (⟨S131072x1x64, .f32⟩ : BufTy).Contents (Elt F) → (⟨S131072x1x64, .f32⟩ : BufTy).Contents (Elt F)),
    TRef.nullary main_call1.cst (constant S_ .f32 0x00000000#32),
    TRef.unary main_call1.cst main_call1.v0 (broadcastInDim S131072x1x64 ![] bcast_S_S131072x1x64),
    TRef.binary (.of main_v18) main_call1.v0 main_call1.v1 (cmpf .ogt),
    TRef.nullary main_call1.cst_0 (constant S_ .f32 0x00000000#32),
    TRef.unary main_call1.cst_0 main_call1.v2 (broadcastInDim S131072x1x64 ![] bcast_S_S131072x1x64),
    TRef.binary (.of main_v18) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S131072x1x64 ![] bcast_S_S131072x1x64),
    TRef.ternary main_call1.v3 main_call1.call0.v1 (.of main_v18) main_call1.call0.v2 select,
    TRef.unary main_call1.call0.v2 main_call1.v5 Host.expm1,
    TRef.nullary main_call1.cst_2 (constant S_ .f32 0x3F800000#32),
    TRef.unary main_call1.cst_2 main_call1.v6 (broadcastInDim S131072x1x64 ![] bcast_S_S131072x1x64),
    TRef.binary main_call1.v6 main_call1.v5 main_call1.v7 mulf,
    TRef.ternary main_call1.v1 (.of main_v18) main_call1.v7 main_call1.call1.v0 select,
    binary main_arg1 main_arg8 main_v20 ((fun l r => Host.dotGeneral dot_S131072x512_S512x128_S131072x128_1_0_0_1_n_n none l r) : (⟨S131072x512, .f32⟩ : BufTy).Contents (Elt F) → (⟨S512x128, .f32⟩ : BufTy).Contents (Elt F) → (⟨S131072x128, .f32⟩ : BufTy).Contents (Elt F)),
    unary main_arg9 main_v21 (broadcastInDim S1x128 ![1] bcast_S128_S1x128_1 : (⟨S128, .f32⟩ : BufTy).Contents (Elt F) → (⟨S1x128, .f32⟩ : BufTy).Contents (Elt F)),
    unary main_v21 main_v22 (broadcastInDim S131072x128 ![0, 1] bcast_S1x128_S131072x128_0_1 : (⟨S1x128, .f32⟩ : BufTy).Contents (Elt F) → (⟨S131072x128, .f32⟩ : BufTy).Contents (Elt F)),
    binary main_v20 main_v22 main_v23 (addf : (⟨S131072x128, .f32⟩ : BufTy).Contents (Elt F) → (⟨S131072x128, .f32⟩ : BufTy).Contents (Elt F) → (⟨S131072x128, .f32⟩ : BufTy).Contents (Elt F)),
    TRef.nullary main_call2.cst (constant S_ .f32 0x00000000#32),
    TRef.unary main_call2.cst main_call2.v0 (broadcastInDim S131072x128 ![] bcast_S_S131072x128),
    TRef.binary (.of main_v23) main_call2.v0 main_call2.v1 maximumf,
    binary main_v24 main_arg10 main_v25 ((fun l r => Host.dotGeneral dot_S131072x128_S128x64_S131072x64_1_0_0_1_n_n none l r) : (⟨S131072x128, .f32⟩ : BufTy).Contents (Elt F) → (⟨S128x64, .f32⟩ : BufTy).Contents (Elt F) → (⟨S131072x64, .f32⟩ : BufTy).Contents (Elt F)),
    unary main_arg11 main_v26 (broadcastInDim S1x64 ![1] bcast_S64_S1x64_1 : (⟨S64, .f32⟩ : BufTy).Contents (Elt F) → (⟨S1x64, .f32⟩ : BufTy).Contents (Elt F)),
    unary main_v26 main_v27 (broadcastInDim S131072x64 ![0, 1] bcast_S1x64_S131072x64_0_1 : (⟨S1x64, .f32⟩ : BufTy).Contents (Elt F) → (⟨S131072x64, .f32⟩ : BufTy).Contents (Elt F)),
    binary main_v25 main_v27 main_v28 (addf : (⟨S131072x64, .f32⟩ : BufTy).Contents (Elt F) → (⟨S131072x64, .f32⟩ : BufTy).Contents (Elt F) → (⟨S131072x64, .f32⟩ : BufTy).Contents (Elt F)),
    unary main_v28 main_v29 (Host.absf : (⟨S131072x64, .f32⟩ : BufTy).Contents (Elt F) → (⟨S131072x64, .f32⟩ : BufTy).Contents (Elt F)),
    unary main_v29 main_v30 (broadcastInDim S131072x64x1 ![0, 1] bcast_S131072x64_S131072x64x1_0_1 : (⟨S131072x64, .f32⟩ : BufTy).Contents (Elt F) → (⟨S131072x64x1, .f32⟩ : BufTy).Contents (Elt F)),
    binary main_arg1 main_arg12 main_v31 ((fun l r => Host.dotGeneral dot_S131072x512_S512x64_S131072x64_1_0_0_1_n_n none l r) : (⟨S131072x512, .f32⟩ : BufTy).Contents (Elt F) → (⟨S512x64, .f32⟩ : BufTy).Contents (Elt F) → (⟨S131072x64, .f32⟩ : BufTy).Contents (Elt F)),
    unary main_arg13 main_v32 (broadcastInDim S1x64 ![1] bcast_S64_S1x64_1 : (⟨S64, .f32⟩ : BufTy).Contents (Elt F) → (⟨S1x64, .f32⟩ : BufTy).Contents (Elt F)),
    unary main_v32 main_v33 (broadcastInDim S131072x64 ![0, 1] bcast_S1x64_S131072x64_0_1 : (⟨S1x64, .f32⟩ : BufTy).Contents (Elt F) → (⟨S131072x64, .f32⟩ : BufTy).Contents (Elt F)),
    binary main_v31 main_v33 main_v34 (addf : (⟨S131072x64, .f32⟩ : BufTy).Contents (Elt F) → (⟨S131072x64, .f32⟩ : BufTy).Contents (Elt F) → (⟨S131072x64, .f32⟩ : BufTy).Contents (Elt F)),
    TRef.nullary main_call3.cst (constant S_ .f32 0x00000000#32),
    TRef.unary main_call3.cst main_call3.v0 (broadcastInDim S131072x64 ![] bcast_S_S131072x64),
    TRef.binary (.of main_v34) main_call3.v0 main_call3.v1 maximumf,
    binary main_v35 main_arg14 main_v36 ((fun l r => Host.dotGeneral dot_S131072x64_S64x1_S131072x1_1_0_0_1_n_n none l r) : (⟨S131072x64, .f32⟩ : BufTy).Contents (Elt F) → (⟨S64x1, .f32⟩ : BufTy).Contents (Elt F) → (⟨S131072x1, .f32⟩ : BufTy).Contents (Elt F)),
    unary main_arg15 main_v37 (broadcastInDim S1x1 ![1] bcast_S1_S1x1_1 : (⟨S1, .f32⟩ : BufTy).Contents (Elt F) → (⟨S1x1, .f32⟩ : BufTy).Contents (Elt F)),
    unary main_v37 main_v38 (broadcastInDim S131072x1 ![0, 1] bcast_S1x1_S131072x1_0_1 : (⟨S1x1, .f32⟩ : BufTy).Contents (Elt F) → (⟨S131072x1, .f32⟩ : BufTy).Contents (Elt F)),
    binary main_v36 main_v38 main_v39 (addf : (⟨S131072x1, .f32⟩ : BufTy).Contents (Elt F) → (⟨S131072x1, .f32⟩ : BufTy).Contents (Elt F) → (⟨S131072x1, .f32⟩ : BufTy).Contents (Elt F)),
    unary main_v39 main_v40 (broadcastInDim S131072x1x1 ![0, 2] bcast_S131072x1_S131072x1x1_0_2 : (⟨S131072x1, .f32⟩ : BufTy).Contents (Elt F) → (⟨S131072x1x1, .f32⟩ : BufTy).Contents (Elt F)),
    binary main_v19 main_v30 main_v41 ((fun l r => Host.dotGeneral dot_S131072x1x64_S131072x64x1_S131072x1x1_2_1_1_2_0_0 none l r) : (⟨S131072x1x64, .f32⟩ : BufTy).Contents (Elt F) → (⟨S131072x64x1, .f32⟩ : BufTy).Contents (Elt F) → (⟨S131072x1x1, .f32⟩ : BufTy).Contents (Elt F)),
    binary main_v41 main_v40 main_v42 (addf : (⟨S131072x1x1, .f32⟩ : BufTy).Contents (Elt F) → (⟨S131072x1x1, .f32⟩ : BufTy).Contents (Elt F) → (⟨S131072x1x1, .f32⟩ : BufTy).Contents (Elt F)),
    reshape main_v42 main_v43 rfl shapeCasts_S131072x1x1_S131072x1 ]

-- both sides are one tree of sixty-four steps; comparing them recurses once per step
set_option maxRecDepth 8192 in
set_option maxHeartbeats 1600000 in
/-- The program is that straight line, by computation: sequencing grafts the rest of the program onto the leaves of
    a callee's body, so with the functions' definitions unfolded at their calls both sides are the same chain of
    steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., unary_bufs_sub ..,
    reshape_bufs_sub .., binary_bufs_sub .., unary_bufs_sub .., unary_bufs_sub .., binary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    unary_bufs_sub .., binary_bufs_sub .., binary_bufs_sub .., reshape_bufs_sub ..⟩

-- the fold is sixty-four results deep and the term composes every one of them: the unifier's recursion and step
-- bounds are raised for the one comparison
set_option maxRecDepth 8192 in
set_option maxHeartbeats 1600000 in
/-- The fold at the result buffer is `refOut` of the arguments' contents, by computation: the fold unrolled, each
    operation's result decides whether the buffer read is the one it writes, and the typed references' transports
    are the identity at these literal references; what is left is the operations' functions composed in the
    program's order, which is how `refOut` is spelt. -/
theorem out_eq (V : Valuation τ sig (Elt F)) :
    after ops V (main_v43 : DevRef τ sig) = Cert.ReferenceIdeal.RefValue.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  simp only [after_cons, after_nil]
  rfl

/-! No operation writes an argument's buffer: the fold leaves each where it was. -/

set_option maxRecDepth 8192 in
set_option maxHeartbeats 1600000 in
theorem arg0_eq (V : Valuation τ sig (Elt F)) :
    after ops V (main_arg0 : DevRef τ sig) = V (main_arg0 : DevRef τ sig) := by
  simp only [after_cons, after_nil]
  rfl

set_option maxRecDepth 8192 in
set_option maxHeartbeats 1600000 in
theorem arg1_eq (V : Valuation τ sig (Elt F)) :
    after ops V (main_arg1 : DevRef τ sig) = V (main_arg1 : DevRef τ sig) := by
  simp only [after_cons, after_nil]
  rfl

set_option maxRecDepth 8192 in
set_option maxHeartbeats 1600000 in
theorem arg2_eq (V : Valuation τ sig (Elt F)) :
    after ops V (main_arg2 : DevRef τ sig) = V (main_arg2 : DevRef τ sig) := by
  simp only [after_cons, after_nil]
  rfl

set_option maxRecDepth 8192 in
set_option maxHeartbeats 1600000 in
theorem arg3_eq (V : Valuation τ sig (Elt F)) :
    after ops V (main_arg3 : DevRef τ sig) = V (main_arg3 : DevRef τ sig) := by
  simp only [after_cons, after_nil]
  rfl

set_option maxRecDepth 8192 in
set_option maxHeartbeats 1600000 in
theorem arg4_eq (V : Valuation τ sig (Elt F)) :
    after ops V (main_arg4 : DevRef τ sig) = V (main_arg4 : DevRef τ sig) := by
  simp only [after_cons, after_nil]
  rfl

set_option maxRecDepth 8192 in
set_option maxHeartbeats 1600000 in
theorem arg5_eq (V : Valuation τ sig (Elt F)) :
    after ops V (main_arg5 : DevRef τ sig) = V (main_arg5 : DevRef τ sig) := by
  simp only [after_cons, after_nil]
  rfl

set_option maxRecDepth 8192 in
set_option maxHeartbeats 1600000 in
theorem arg6_eq (V : Valuation τ sig (Elt F)) :
    after ops V (main_arg6 : DevRef τ sig) = V (main_arg6 : DevRef τ sig) := by
  simp only [after_cons, after_nil]
  rfl

set_option maxRecDepth 8192 in
set_option maxHeartbeats 1600000 in
theorem arg7_eq (V : Valuation τ sig (Elt F)) :
    after ops V (main_arg7 : DevRef τ sig) = V (main_arg7 : DevRef τ sig) := by
  simp only [after_cons, after_nil]
  rfl

set_option maxRecDepth 8192 in
set_option maxHeartbeats 1600000 in
theorem arg8_eq (V : Valuation τ sig (Elt F)) :
    after ops V (main_arg8 : DevRef τ sig) = V (main_arg8 : DevRef τ sig) := by
  simp only [after_cons, after_nil]
  rfl

set_option maxRecDepth 8192 in
set_option maxHeartbeats 1600000 in
theorem arg9_eq (V : Valuation τ sig (Elt F)) :
    after ops V (main_arg9 : DevRef τ sig) = V (main_arg9 : DevRef τ sig) := by
  simp only [after_cons, after_nil]
  rfl

set_option maxRecDepth 8192 in
set_option maxHeartbeats 1600000 in
theorem arg10_eq (V : Valuation τ sig (Elt F)) :
    after ops V (main_arg10 : DevRef τ sig) = V (main_arg10 : DevRef τ sig) := by
  simp only [after_cons, after_nil]
  rfl

set_option maxRecDepth 8192 in
set_option maxHeartbeats 1600000 in
theorem arg11_eq (V : Valuation τ sig (Elt F)) :
    after ops V (main_arg11 : DevRef τ sig) = V (main_arg11 : DevRef τ sig) := by
  simp only [after_cons, after_nil]
  rfl

set_option maxRecDepth 8192 in
set_option maxHeartbeats 1600000 in
theorem arg12_eq (V : Valuation τ sig (Elt F)) :
    after ops V (main_arg12 : DevRef τ sig) = V (main_arg12 : DevRef τ sig) := by
  simp only [after_cons, after_nil]
  rfl

set_option maxRecDepth 8192 in
set_option maxHeartbeats 1600000 in
theorem arg13_eq (V : Valuation τ sig (Elt F)) :
    after ops V (main_arg13 : DevRef τ sig) = V (main_arg13 : DevRef τ sig) := by
  simp only [after_cons, after_nil]
  rfl

set_option maxRecDepth 8192 in
set_option maxHeartbeats 1600000 in
theorem arg14_eq (V : Valuation τ sig (Elt F)) :
    after ops V (main_arg14 : DevRef τ sig) = V (main_arg14 : DevRef τ sig) := by
  simp only [after_cons, after_nil]
  rfl

set_option maxRecDepth 8192 in
set_option maxHeartbeats 1600000 in
theorem arg15_eq (V : Valuation τ sig (Elt F)) :
    after ops V (main_arg15 : DevRef τ sig) = V (main_arg15 : DevRef τ sig) := by
  simp only [after_cons, after_nil]
  rfl

/-- On every device, for any float values, from any memory with zero counters: every weakly fair execution of the
    reference terminates with its result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = Cert.ReferenceIdeal.RefValue.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v43).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _)⟩)
    (run_seq scopedRefs_eq scopedSems_eq defs main (fun _ => ops) main_eq (fun _ => ops_sub) m ρ)

end Cert.ReferenceIdeal.RefRun

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«155231_j82678120448731_2_alg».proof.Proof.LibDenseLayer
import proofs.«155231_j82678120448731_2_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.RefRow.lean ====
/-
  The reference's result, read one row at a time, on the extended reals.

  `refOut` is the reference's result as one term of its sixteen argument arrays. Entry `(P, 0)` of it is the mixing
  network's output `rowOut` for row `P` of the state `s` and row `P` of the agents' values `qs`, with every weight
  entering as the function of its two coordinates and every bias as the function of its coordinate.

  The reading goes from the outside in. A dense layer `x · w + b` at `(P, q)` is `rowDense` of row `P` of `x`; the
  rectifier and the absolute value act entry by entry. The two batched products run over the batch axis 0: at the
  output `(P, 0, m)` and the contraction coordinate `a` the first reads its left operand at `(P, 0, a)` and its right
  operand at `(P, a, m)`, and likewise the second with `m` contracted. The left operand of the first product is `qs`
  with a unit axis inserted, so its entry `(P, 0, a)` is `qs (P, a)`; its right operand is the `[B, 512]` array of generated
  weights reshaped to `[B, 8, 64]`, and since `P · 512 + (a · 64 + m) = (P · 8 + a) · 64 + m` its entry `(P, a, m)` is the
  entry `(P, lane a m)` of the unreshaped array. The exponential linear unit is spelt with two selects on `x > 0`, a unit
  scale and `expm1`; on the extended reals that is `elu`. No finiteness of any input is used: only what `+` and `·` are.
-/
import proofs.«155231_j82678120448731_2_alg».proof.Proof.RefTerm
import proofs.«155231_j82678120448731_2_alg».proof.Proof.Spec
import proofs.«155231_j82678120448731_2_alg».proof.Proof.LibLayerForms
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.ReferenceIdeal.RefRow

open Idealize.ShloMosaic Idealize.ShloMosaic.ValueIdx Cert.ReferenceIdeal Cert.ReferenceIdeal.Gen Cert.ReferenceIdeal.RefValue Cert.Mixer Cert.LayerForms Cert.DenseLayer

/-- The dimension numbers of the first batched product: `[B, 1, 8] · [B, 8, 64]` over the batch axis 0. -/
abbrev D1 := dot_S131072x1x8_S131072x8x64_S131072x1x64_2_1_1_2_0_0
/-- The dimension numbers of the second batched product: `[B, 1, 64] · [B, 64, 1]` over the batch axis 0. -/
abbrev D2 := dot_S131072x1x64_S131072x64x1_S131072x1x1_2_1_1_2_0_0

/-- The first product's left index at output `(P, 0, m)` and contraction coordinate `a` is `(P, 0, a)`. -/
theorem D1_lhsIdx (P : Fin 131072) (m : Fin 64) (a : Fin 8) :
    D1.lhsIdx (ix3 P (0 : Fin 1) m) ((contrEquiv1 D1 8 rfl rfl).symm a) = ix3 P (0 : Fin 1) a :=
  funext fun c => Fin.ext (by
    match c with
    | ⟨0, _⟩ => rfl
    | ⟨1, _⟩ => rfl
    | ⟨2, _⟩ =>
      exact (D1.lhsIdx_val_of_single rfl (ix3 P (0 : Fin 1) m) _).trans
        (contrEquiv1_symm_val D1 8 rfl rfl a))

/-- The first product's right index there is `(P, a, m)`. -/
theorem D1_rhsIdx (P : Fin 131072) (m : Fin 64) (a : Fin 8) :
    D1.rhsIdx (ix3 P (0 : Fin 1) m) ((contrEquiv1 D1 8 rfl rfl).symm a) = ix3 P a m :=
  funext fun c => Fin.ext (by
    match c with
    | ⟨0, _⟩ => rfl
    | ⟨1, _⟩ =>
      exact (D1.rhsIdx_val_of_single rfl (ix3 P (0 : Fin 1) m) _).trans
        (contrEquiv1_symm_val D1 8 rfl rfl a)
    | ⟨2, _⟩ => rfl)

/-- The second product's left index at output `(P, 0, 0)` and contraction coordinate `m` is `(P, 0, m)`. -/
theorem D2_lhsIdx (P : Fin 131072) (m : Fin 64) :
    D2.lhsIdx (ix3 P (0 : Fin 1) (0 : Fin 1)) ((contrEquiv1 D2 64 rfl rfl).symm m) = ix3 P (0 : Fin 1) m :=
  funext fun c => Fin.ext (by
    match c with
    | ⟨0, _⟩ => rfl
    | ⟨1, _⟩ => rfl
    | ⟨2, _⟩ =>
      exact (D2.lhsIdx_val_of_single rfl (ix3 P (0 : Fin 1) (0 : Fin 1)) _).trans
        (contrEquiv1_symm_val D2 64 rfl rfl m))

/-- The second product's right index there is `(P, m, 0)`. -/
theorem D2_rhsIdx (P : Fin 131072) (m : Fin 64) :
    D2.rhsIdx (ix3 P (0 : Fin 1) (0 : Fin 1)) ((contrEquiv1 D2 64 rfl rfl).symm m) = ix3 P m (0 : Fin 1) :=
  funext fun c => Fin.ext (by
    match c with
    | ⟨0, _⟩ => rfl
    | ⟨1, _⟩ =>
      exact (D2.rhsIdx_val_of_single rfl (ix3 P (0 : Fin 1) (0 : Fin 1)) _).trans
        (contrEquiv1_symm_val D2 64 rfl rfl m)
    | ⟨2, _⟩ => rfl)

/-- The hidden layer before its activation at `(P, 0, m)`: row `P` of the agents' values against the eight groups of 64
    generated weights of row `P`, plus the generated bias. -/
theorem hiddenPre_apply (qs : FVec Ideal S131072x8 .f32) (w1 : FVec Ideal S131072x512 .f32) (b1 : FVec Ideal S131072x64 .f32)
    (P : Fin 131072) (m : Fin 64) :
    hiddenPre (F := Ideal) qs w1 b1 (ix3 P (0 : Fin 1) m)
      = (∑ a : Fin 8, qs (ix2 P a) * w1 (ix2 P (lane a m))) + b1 (ix2 P m) := by
  show FloatOps.dotGeneral D1 none .single (broadcastInDim S131072x1x8 ![0, 2] bcast_S131072x8_S131072x1x8_0_2 qs)
        (shapeCast S131072x8x64 w1 shapeCasts_S131072x512_S131072x8x64) (ix3 P (0 : Fin 1) m)
      + broadcastInDim S131072x1x64 ![0, 2] bcast_S131072x64_S131072x1x64_0_2 b1 (ix3 P (0 : Fin 1) m) = _
  rw [Ideal.dotGeneral_apply, ← Equiv.sum_comp (contrEquiv1 D1 8 rfl rfl).symm]
  congr 1
  · refine Finset.sum_congr rfl fun a _ => ?_
    rw [D1_lhsIdx, D1_rhsIdx]
    congr 1
    · refine broadcastInDim_apply ![0, 2] _ qs (ix3 P (0 : Fin 1) a) (ix2 P a) fun c => ?_
      match c with
      | ⟨0, _⟩ => rfl
      | ⟨1, _⟩ => rfl
    · refine shapeCast_apply w1 _ (ix3 P a m) (ix2 P (lane a m)) ?_
      rw [Shape.rowMajor_val_two, Shape.rowMajor_val_three]
      show P.val * 512 + (a.val * 64 + m.val) = (P.val * 8 + a.val) * 64 + m.val
      omega
  · refine broadcastInDim_apply ![0, 2] _ b1 (ix3 P (0 : Fin 1) m) (ix2 P m) fun c => ?_
    match c with
    | ⟨0, _⟩ => rfl
    | ⟨1, _⟩ => rfl

/-- The output layer at `(P, 0)`: the hidden activations of row `P` against the generated second-layer weights of row
    `P`, plus the generated bias. -/
theorem mixOut_apply (hid : FVec Ideal S131072x1x64 .f32) (w2 : FVec Ideal S131072x64 .f32) (b2 : FVec Ideal S131072x1 .f32)
    (P : Fin 131072) :
    mixOut (F := Ideal) hid w2 b2 (ix2 P (0 : Fin 1))
      = (∑ m : Fin 64, hid (ix3 P (0 : Fin 1) m) * w2 (ix2 P m)) + b2 (ix2 P (0 : Fin 1)) := by
  unfold mixOut
  refine (shapeCast_apply _ _ (ix2 P (0 : Fin 1)) (ix3 P (0 : Fin 1) (0 : Fin 1)) ?_).trans ?_
  · rw [Shape.rowMajor_val_two, Shape.rowMajor_val_three]
    show (P.val * 1 + 0) * 1 + 0 = P.val * 1 + 0
    omega
  show FloatOps.dotGeneral D2 none .single hid
        (broadcastInDim S131072x64x1 ![0, 1] bcast_S131072x64_S131072x64x1_0_1 w2) (ix3 P (0 : Fin 1) (0 : Fin 1))
      + broadcastInDim S131072x1x1 ![0, 2] bcast_S131072x1_S131072x1x1_0_2 b2 (ix3 P (0 : Fin 1) (0 : Fin 1)) = _
  rw [Ideal.dotGeneral_apply, ← Equiv.sum_comp (contrEquiv1 D2 64 rfl rfl).symm]
  congr 1
  · refine Finset.sum_congr rfl fun m _ => ?_
    rw [D2_lhsIdx, D2_rhsIdx]
    congr 1
    refine broadcastInDim_apply ![0, 1] _ w2 (ix3 P m (0 : Fin 1)) (ix2 P m) fun c => ?_
    match c with
    | ⟨0, _⟩ => rfl
    | ⟨1, _⟩ => rfl
  · refine broadcastInDim_apply ![0, 2] _ b2 (ix3 P (0 : Fin 1) (0 : Fin 1)) (ix2 P (0 : Fin 1)) fun c => ?_
    match c with
    | ⟨0, _⟩ => rfl
    | ⟨1, _⟩ => rfl

/-- The exponential linear unit entry by entry. -/
theorem hostElu_apply (x : FVec Ideal S131072x1x64 .f32) (i : S131072x1x64.Idx) :
    hostElu (F := Ideal) x i = elu (x i) := by
  show Scalar.select (Ideal.cmp .ogt (x i) (Ideal.ofBits .f32 0x00000000#32)) (x i)
      (Ideal.ofBits .f32 0x3F800000#32
        * (Ideal.exp (Scalar.select (Ideal.cmp .ogt (x i) (Ideal.ofBits .f32 0x00000000#32))
            (Ideal.ofBits .f32 0x00000000#32) (x i)) - 1)) = elu (x i)
  rw [Ideal.ofBits_zero_f32, Ideal.ofBits_one_f32, select_ogt, select_ogt]
  exact elu_of_guard (x i)

/-- Entry `(P, q)` of `s · W + b` into 128 columns is the dense layer of row `P`. -/
theorem hostLayer128_apply (s : FVec Ideal S131072x512 .f32) (W : FVec Ideal S512x128 .f32) (b : FVec Ideal S128 .f32)
    (P : Fin 131072) (q : Fin 128) :
    hostLayer128 (F := Ideal) s W b (ix2 P q)
      = rowDense (fun k => s (ix2 P k)) (fun k j => W (ix2 k j)) (fun j => b (ix1 j)) q :=
  congrFun (host_layer (M := 131072) (K := 512) (N := 128) dot_S131072x512_S512x128_S131072x128_1_0_0_1_n_n rfl none s W b
    bcast_S128_S1x128_1 bcast_S1x128_S131072x128_0_1) (ix2 P q)

/-- Entry `(P, q)` of `s · W + b` into 64 columns is the dense layer of row `P`. -/
theorem hostLayer64_apply (s : FVec Ideal S131072x512 .f32) (W : FVec Ideal S512x64 .f32) (b : FVec Ideal S64 .f32)
    (P : Fin 131072) (q : Fin 64) :
    hostLayer64 (F := Ideal) s W b (ix2 P q)
      = rowDense (fun k => s (ix2 P k)) (fun k j => W (ix2 k j)) (fun j => b (ix1 j)) q :=
  congrFun (host_layer (M := 131072) (K := 512) (N := 64) dot_S131072x512_S512x64_S131072x64_1_0_0_1_n_n rfl none s W b
    bcast_S64_S1x64_1 bcast_S1x64_S131072x64_0_1) (ix2 P q)

/-- Entry `(P, q)` of `h · W + b` from 128 into 512 columns is the dense layer of row `P`. -/
theorem hostLayer128x512_apply (h : FVec Ideal S131072x128 .f32) (W : FVec Ideal S128x512 .f32) (b : FVec Ideal S512 .f32)
    (P : Fin 131072) (q : Fin 512) :
    hostLayer128x512 (F := Ideal) h W b (ix2 P q)
      = rowDense (fun k => h (ix2 P k)) (fun k j => W (ix2 k j)) (fun j => b (ix1 j)) q :=
  congrFun (host_layer (M := 131072) (K := 128) (N := 512) dot_S131072x128_S128x512_S131072x512_1_0_0_1_n_n rfl none h W b
    bcast_S512_S1x512_1 bcast_S1x512_S131072x512_0_1) (ix2 P q)

/-- Entry `(P, q)` of `h · W + b` from 128 into 64 columns is the dense layer of row `P`. -/
theorem hostLayer128x64_apply (h : FVec Ideal S131072x128 .f32) (W : FVec Ideal S128x64 .f32) (b : FVec Ideal S64 .f32)
    (P : Fin 131072) (q : Fin 64) :
    hostLayer128x64 (F := Ideal) h W b (ix2 P q)
      = rowDense (fun k => h (ix2 P k)) (fun k j => W (ix2 k j)) (fun j => b (ix1 j)) q :=
  congrFun (host_layer (M := 131072) (K := 128) (N := 64) dot_S131072x128_S128x64_S131072x64_1_0_0_1_n_n rfl none h W b
    bcast_S64_S1x64_1 bcast_S1x64_S131072x64_0_1) (ix2 P q)

/-- Entry `(P, q)` of `h · W + b` from 64 into one column is the dense layer of row `P`. -/
theorem hostLayer64x1_apply (h : FVec Ideal S131072x64 .f32) (W : FVec Ideal S64x1 .f32) (b : FVec Ideal S1 .f32)
    (P : Fin 131072) (q : Fin 1) :
    hostLayer64x1 (F := Ideal) h W b (ix2 P q)
      = rowDense (fun k => h (ix2 P k)) (fun k j => W (ix2 k j)) (fun j => b (ix1 j)) q :=
  congrFun (host_layer (M := 131072) (K := 64) (N := 1) dot_S131072x64_S64x1_S131072x1_1_0_0_1_n_n rfl none h W b
    bcast_S1_S1x1_1 bcast_S1x1_S131072x1_0_1) (ix2 P q)

/-- The rectifier over 128 columns entry by entry. -/
theorem hostRelu128_apply (x : FVec Ideal S131072x128 .f32) (i : S131072x128.Idx) :
    hostRelu128 (F := Ideal) x i = max (x i) 0 :=
  congrFun (host_relu x bcast_S_S131072x128) i

/-- The rectifier over 64 columns entry by entry. -/
theorem hostRelu64_apply (x : FVec Ideal S131072x64 .f32) (i : S131072x64.Idx) :
    hostRelu64 (F := Ideal) x i = max (x i) 0 :=
  congrFun (host_relu x bcast_S_S131072x64) i

/-- The absolute value entry by entry: `max x (-x)`. -/
theorem hostAbsf_apply {S : Shape} (x : FVec Ideal S .f32) (i : S.Idx) : Host.absf x i = absE (x i) := rfl

/-- Entry `(P, 0)` of the reference's result is the network's output for row `P` of `s` and of `qs`. -/
theorem refOut_row (qs : FVec Ideal S131072x8 .f32) (s : FVec Ideal S131072x512 .f32)
    (W1a : FVec Ideal S512x128 .f32) (b1a : FVec Ideal S128 .f32) (W1b : FVec Ideal S128x512 .f32) (b1b : FVec Ideal S512 .f32)
    (Wb1 : FVec Ideal S512x64 .f32) (bb1 : FVec Ideal S64 .f32) (W2a : FVec Ideal S512x128 .f32) (b2a : FVec Ideal S128 .f32)
    (W2b : FVec Ideal S128x64 .f32) (b2b : FVec Ideal S64 .f32) (Wb2a : FVec Ideal S512x64 .f32) (bb2a : FVec Ideal S64 .f32)
    (Wb2b : FVec Ideal S64x1 .f32) (bb2b : FVec Ideal S1 .f32) (P : Fin 131072) :
    Cert.ReferenceIdeal.RefValue.refOut (F := Ideal) qs s W1a b1a W1b b1b Wb1 bb1 W2a b2a W2b b2b Wb2a bb2a Wb2b bb2b (ix2 P (0 : Fin 1))
      = rowOut (fun k => s (ix2 P k)) (fun a => qs (ix2 P a))
          (fun k j => W1a (ix2 k j)) (fun j => b1a (ix1 j)) (fun j n => W1b (ix2 j n)) (fun n => b1b (ix1 n))
          (fun k m => Wb1 (ix2 k m)) (fun m => bb1 (ix1 m)) (fun k j => W2a (ix2 k j)) (fun j => b2a (ix1 j))
          (fun j m => W2b (ix2 j m)) (fun m => b2b (ix1 m)) (fun k m => Wb2a (ix2 k m)) (fun m => bb2a (ix1 m))
          (fun m => Wb2b (ix2 m (0 : Fin 1))) (bb2b (ix1 (0 : Fin 1))) := by
  unfold refOut
  rw [mixOut_apply]
  simp only [hostElu_apply, hiddenPre_apply, hostAbsf_apply, hostLayer128x512_apply, hostLayer128x64_apply,
    hostLayer64x1_apply, hostLayer64_apply, hostLayer128_apply, hostRelu128_apply, hostRelu64_apply]
  rfl

end Cert.ReferenceIdeal.RefRow

end
-- ==== Proof.lean ====
/-
  The mixing network as a tiled kernel and as a whole-array program compute the same numbers on the extended reals.

  The kernel cuts the 131072 rows of the state and of the agents' values into 64 blocks of 2048 rows, keeps every weight
  array whole beside them (two pairs of weight matrices side by side, so that one matrix product serves two layers), and
  for each block evaluates the network on its rows; the whole-array program evaluates the same network on all rows at
  once, with the agents' values and the generated weights meeting in two batched products. Row `P` of either result is
  `Cert.Mixer.rowOut` of row `P` of the state and of the agents' values and of the weights (Proof/Spec.lean): for the
  kernel because a block's row `p` at grid point `t` is row `2048 t + p` of the arrays and the 64 blocks cover all rows
  (Proof/KernelRows.lean over Proof/PayRow.lean), for the whole-array program by reading its result term at an index
  (Proof/RefRow.lean over Proof/RefRun.lean). The two spellings differ only where the extended reals do not care: the
  order in which nine numbers are added, `min x 0` against a guarded `x` under the exponential where `x` is not
  positive, a unit factor, matrices laid side by side and read back by halves, and narrowing to bf16, which is the
  identity here. No step uses that the inputs are finite.

  The three frame claims are the generated frame proofs of the two kernel programs and, for the whole-array program, its
  run with the result forgotten. The idealization rewrote no operation, so `preserves` asks nothing.
-/
import proofs.«155231_j82678120448731_2_alg».proof.Defs
import proofs.«155231_j82678120448731_2_alg».proof.Proof.Gen.Kernel
import proofs.«155231_j82678120448731_2_alg».proof.Proof.Gen.Kernel.Skeleton
import proofs.«155231_j82678120448731_2_alg».proof.Proof.Gen.Kernel.Launch
import proofs.«155231_j82678120448731_2_alg».proof.Proof.Gen.Kernel.Points
import proofs.«155231_j82678120448731_2_alg».proof.Proof.Gen.Kernel.Frame
import proofs.«155231_j82678120448731_2_alg».proof.Proof.Gen.KernelIdeal
import proofs.«155231_j82678120448731_2_alg».proof.Proof.Gen.KernelIdeal.Skeleton
import proofs.«155231_j82678120448731_2_alg».proof.Proof.Gen.KernelIdeal.Launch
import proofs.«155231_j82678120448731_2_alg».proof.Proof.Gen.KernelIdeal.Points
import proofs.«155231_j82678120448731_2_alg».proof.Proof.Gen.KernelIdeal.Frame
import proofs.«155231_j82678120448731_2_alg».proof.Proof.Gen.ReferenceIdeal
import proofs.«155231_j82678120448731_2_alg».proof.Proof.Gen.Pre_finite_inputs
import proofs.«155231_j82678120448731_2_alg».proof.Proof.KernelRows
import proofs.«155231_j82678120448731_2_alg».proof.Proof.RefRun
import proofs.«155231_j82678120448731_2_alg».proof.Proof.RefRow
import Idealize.ShloMosaic.Adequacy
import Idealize.ShloMosaic.Init

noncomputable section

namespace Cert.Proof

open Idealize.ShloMosaic Idealize.ShloMosaic.ValueIdx Idealize.SL.Sem

/-- The word-level kernel program runs and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the whole-array program: its run, with what it computes forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From arguments that agree, the kernel's output array and the whole-array program's result are the same array:
    row `P` of each is the network's output for row `P`. -/
theorem algebraic : Cert.algebraic_KernelIdeal_ReferenceIdeal := by
  intro m ρ m' ρ' _ hagree
  refine ⟨fun c => Cert.KernelIdeal.RowValue.kernelOut m c, Cert.KernelIdeal.RowValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10, a11, a12, a13, a14, a15⟩ := hagree c
  rw [a0, a1, a2, a3, a4, a5, a6, a7, a8, a9, a10, a11, a12, a13, a14, a15]
  funext i
  obtain ⟨P, u, rfl⟩ : ∃ (P : Fin 131072) (u : Fin 1), i = ix2 P u := ⟨i 0, i 1, eq_ix2 i⟩
  obtain rfl : u = 0 := Subsingleton.elim _ _
  exact Cert.ReferenceIdeal.RefRow.refOut_row _ _ _ _ _ _ _ _ _ _ _ _ _ _ _ _ P

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
